-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_v56) = v2 c
          ∧ r.2.mem ((c.tc : Thread Cert.ReferenceIdeal.nD Cert.ReferenceIdeal.τ).loc Cert.ReferenceIdeal.main_v80) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x16x128 : Shape := ⟨3, ![16, 16, 128]⟩
abbrev S16x16x128x768 : Shape := ⟨4, ![16, 16, 128, 768]⟩
abbrev S16x16x8x8 : Shape := ⟨4, ![16, 16, 8, 8]⟩
abbrev S_ : Shape := ⟨0, ![]⟩

class Facts : Prop where
  bcast_S_S16x16x128x768 : S_.BroadcastsInDim S16x16x128x768 (![] : Fin 0 → Fin S16x16x128x768.rank)
  reducesTo_S16x16x128x768_S_d0_1_2_3 : S16x16x128x768.ReducesTo [0, 1, 2, 3] S_
  h_S_ : 0 < S_.numel

variable [Facts]

def fn {F : FTy → Type} [FloatOps F] (main_arg0 : IVec S16x16x128 32) (main_arg1 : IVec S16x16x128 32) (main_arg2 : FVec F S16x16x128x768 .f32) (main_arg3 : IVec S16x16x8x8 32) (main_arg4 : IVec S16x16x8x8 32) (main_arg5 : IVec S16x16x8x8 32) : IVec S_ 1 :=
  let main_v0 : FVec F S16x16x128x768 .f32 := Host.absf main_arg2
  let main_cst : FVec F S_ .f32 := constant S_ .f32 0x7F800000#32
  let main_v1 : FVec F S16x16x128x768 .f32 := broadcastInDim S16x16x128x768 ![] bcast_S_S16x16x128x768 main_cst
  let main_v2 : IVec S16x16x128x768 1 := cmpf .olt main_v0 main_v1
  let main_c : IVec S_ 1 := constantI S_ 1 1#1
  let main_v3 : IVec S_ 1 := (fun x v => Host.reduce IntOp.andi x v reducesTo_S16x16x128x768_S_d0_1_2_3 h_S_) main_v2 main_c
  main_v3
-- ==== Kernel.lean ====
abbrev S16x16x128 : Shape := ⟨3, ![16, 16, 128]⟩
abbrev S16x16x128x768 : Shape := ⟨4, ![16, 16, 128, 768]⟩
abbrev S16x16x8x8 : Shape := ⟨4, ![16, 16, 8, 8]⟩
abbrev S16x16x768 : Shape := ⟨3, ![16, 16, 768]⟩
abbrev S16x16x8x768 : Shape := ⟨4, ![16, 16, 8, 768]⟩
abbrev S1x16x128 : Shape := ⟨3, ![1, 16, 128]⟩
abbrev S1x16x128x768 : Shape := ⟨4, ![1, 16, 128, 768]⟩
abbrev S1x16x8x8 : Shape := ⟨4, ![1, 16, 8, 8]⟩
abbrev S1x16x768 : Shape := ⟨3, ![1, 16, 768]⟩
abbrev S1x16x8x768 : Shape := ⟨4, ![1, 16, 8, 768]⟩
abbrev S16x128 : Shape := ⟨2, ![16, 128]⟩
abbrev S16x128x768 : Shape := ⟨3, ![16, 128, 768]⟩
abbrev S16 : Shape := ⟨1, ![16]⟩
abbrev S16x1 : Shape := ⟨2, ![16, 1]⟩
abbrev S16x1x128 : Shape := ⟨3, ![16, 1, 128]⟩
abbrev S16x1x768 : Shape := ⟨3, ![16, 1, 768]⟩
abbrev S16x768 : Shape := ⟨2, ![16, 768]⟩
abbrev S16x8x8 : Shape := ⟨3, ![16, 8, 8]⟩
abbrev S16x8x8x1 : Shape := ⟨4, ![16, 8, 8, 1]⟩
abbrev S16x1x1x128 : Shape := ⟨4, ![16, 1, 1, 128]⟩
abbrev S16x8x8x128 : Shape := ⟨4, ![16, 8, 8, 128]⟩
abbrev S16x8x128 : Shape := ⟨3, ![16, 8, 128]⟩
abbrev S16x8 : Shape := ⟨2, ![16, 8]⟩
abbrev S16x8x1 : Shape := ⟨3, ![16, 8, 1]⟩
abbrev S16x8x768 : Shape := ⟨3, ![16, 8, 768]⟩

abbrev nBuf : Space → Nat
  | .hbm => 10
  | .vmem => 20
  | .smem => 0
  | _ => 0

abbrev bufTy : (tb : Table) → Fin (tcTables nBuf tb) → BufTy
  | .hbm, ⟨0, _⟩ => ⟨S16x16x128, .i32⟩
  | .hbm, ⟨1, _⟩ => ⟨S16x16x128, .i32⟩
  | .hbm, ⟨2, _⟩ => ⟨S16x16x128x768, .f32⟩
  | .hbm, ⟨3, _⟩ => ⟨S16x16x8x8, .i32⟩
  | .hbm, ⟨4, _⟩ => ⟨S16x16x8x8, .i32⟩
  | .hbm, ⟨5, _⟩ => ⟨S16x16x8x8, .i32⟩
  | .hbm, ⟨6, _⟩ => ⟨S16x16x768, .f32⟩
  | .hbm, ⟨7, _⟩ => ⟨S16x16x8x768, .f32⟩
  | .hbm, ⟨8, _⟩ => ⟨S16x16x8x768, .f32⟩
  | .hbm, ⟨9, _⟩ => ⟨S16x16x8x768, .f32⟩
  | .local _ .vmem, ⟨0, _⟩ => ⟨S1x16x128, .i32⟩
  | .local _ .vmem, ⟨1, _⟩ => ⟨S1x16x128, .i32⟩
  | .local _ .vmem, ⟨2, _⟩ => ⟨S1x16x128, .i32⟩
  | .local _ .vmem, ⟨3, _⟩ => ⟨S1x16x128, .i32⟩
  | .local _ .vmem, ⟨4, _⟩ => ⟨S1x16x128x768, .f32⟩
  | .local _ .vmem, ⟨5, _⟩ => ⟨S1x16x128x768, .f32⟩
  | .local _ .vmem, ⟨6, _⟩ => ⟨S1x16x8x8, .i32⟩
  | .local _ .vmem, ⟨7, _⟩ => ⟨S1x16x8x8, .i32⟩
  | .local _ .vmem, ⟨8, _⟩ => ⟨S1x16x8x8, .i32⟩
  | .local _ .vmem, ⟨9, _⟩ => ⟨S1x16x8x8, .i32⟩
  | .local _ .vmem, ⟨10, _⟩ => ⟨S1x16x8x8, .i32⟩
  | .local _ .vmem, ⟨11, _⟩ => ⟨S1x16x8x8, .i32⟩
  | .local _ .vmem, ⟨12, _⟩ => ⟨S1x16x768, .f32⟩
  | .local _ .vmem, ⟨13, _⟩ => ⟨S1x16x768, .f32⟩
  | .local _ .vmem, ⟨14, _⟩ => ⟨S1x16x8x768, .f32⟩
  | .local _ .vmem, ⟨15, _⟩ => ⟨S1x16x8x768, .f32⟩
  | .local _ .vmem, ⟨16, _⟩ => ⟨S1x16x8x768, .f32⟩
  | .local _ .vmem, ⟨17, _⟩ => ⟨S1x16x8x768, .f32⟩
  | .local _ .vmem, ⟨18, _⟩ => ⟨S1x16x8x768, .f32⟩
  | .local _ .vmem, ⟨19, _⟩ => ⟨S1x16x8x768, .f32⟩
  | _, _ => ⟨S16x16x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x16x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x128x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x8x8 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x8x8 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16x8x8 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x16x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x16x8x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x16x8x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x16x8x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  inb_S1x16x128_S1x16x128_0_0_0 : ∀ a, (![0, 0, 0] : Fin 3 → Nat) a + S1x16x128.size a ≤ S1x16x128.size a
  h_S1x16x128 : 0 < S1x16x128.numel
  shapeCasts_S1x16x128_S16x128 : S1x16x128.ShapeCasts S16x128
  inb_S1x16x128x768_S1x16x128x768_0_0_0_0 : ∀ a, (![0, 0, 0, 0] : Fin 4 → Nat) a + S1x16x128x768.size a ≤ S1x16x128x768.size a
  h_S1x16x128x768 : 0 < S1x16x128x768.numel
  shapeCasts_S1x16x128x768_S16x128x768 : S1x16x128x768.ShapeCasts S16x128x768
  bitsLt_bf16_f32 : FTy.bits .bf16 < FTy.bits .f32
  reduces_S16x128_S16 : S16x128.Reduces [1] S16
  shapeCasts_S16_S16x1 : S16.ShapeCasts S16x1
  broadcasts_S16x1_S16x128 : S16x1.Broadcasts S16x128
  shapeCasts_S16x128_S16x1x128 : S16x128.ShapeCasts S16x1x128
  shapeCasts_S16x1x768_S16x768 : S16x1x768.ShapeCasts S16x768
  inb_S1x16x768_S1x16x768_0_0_0 : ∀ a, (![0, 0, 0] : Fin 3 → Nat) a + S1x16x768.size a ≤ S1x16x768.size a
  h_S1x16x768 : 0 < S1x16x768.numel
  shapeCasts_S1x16x768_S16x768 : S1x16x768.ShapeCasts S16x768
  shapeCasts_S16x768_S1x16x768 : S16x768.ShapeCasts S1x16x768
  inb_S1x16x8x8_S1x16x8x8_0_0_0_0 : ∀ a, (![0, 0, 0, 0] : Fin 4 → Nat) a + S1x16x8x8.size a ≤ S1x16x8x8.size a
  h_S1x16x8x8 : 0 < S1x16x8x8.numel
  shapeCasts_S1x16x8x8_S16x8x8 : S1x16x8x8.ShapeCasts S16x8x8
  shapeCasts_S16x8x8_S16x8x8x1 : S16x8x8.ShapeCasts S16x8x8x1
  shapeCasts_S16x128_S16x1x1x128 : S16x128.ShapeCasts S16x1x1x128
  broadcasts_S16x8x8x1_S16x8x8x128 : S16x8x8x1.Broadcasts S16x8x8x128
  broadcasts_S16x1x1x128_S16x8x8x128 : S16x1x1x128.Broadcasts S16x8x8x128
  natLt_1_32 : 1 < 32
  reduces_S16x8x8x128_S16x8x8 : S16x8x8x128.Reduces [3] S16x8x8
  reduces_S16x8x8x128_S16x8x128 : S16x8x8x128.Reduces [2] S16x8x128
  reduces_S16x8x8_S16x8 : S16x8x8.Reduces [2] S16x8
  shapeCasts_S16x8_S16x8x1 : S16x8.ShapeCasts S16x8x1
  broadcasts_S16x8x1_S16x8x768 : S16x8x1.Broadcasts S16x8x768
  inb_S1x16x8x768_S1x16x8x768_0_0_0_0 : ∀ a, (![0, 0, 0, 0] : Fin 4 → Nat) a + S1x16x8x768.size a ≤ S1x16x8x768.size a
  h_S1x16x8x768 : 0 < S1x16x8x768.numel
  shapeCasts_S1x16x8x768_S16x8x768 : S1x16x8x768.ShapeCasts S16x8x768
  shapeCasts_S16x8x768_S1x16x8x768 : S16x8x768.ShapeCasts S1x16x8x768
  dot_S16x1x128_S16x128x768_S16x1x768_2_1_1_2_0_0_wf : DotDims.WF S16x1x128 S16x128x768 S16x1x768 [2] [1] [1] [2] [0] [0]
  dot_S16x8x128_S16x128x768_S16x8x768_2_1_1_2_0_0_wf : DotDims.WF S16x8x128 S16x128x768 S16x8x768 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x128.size a ≤ S16x16x128.size a
  hwx0_0 : ∀ i : grid0.Coords, EltTy.bits .i32 = 32 ∨ (Rect.block (s := S16x16x128) S1x16x128.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x128.size a ≤ S16x16x128.size a
  hwx0_1 : ∀ i : grid0.Coords, EltTy.bits .i32 = 32 ∨ (Rect.block (s := S16x16x128) S1x16x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x128x768.size a ≤ S16x16x128x768.size a
  hwx0_2 : ∀ i : grid0.Coords, EltTy.bits .f32 = 32 ∨ (Rect.block (s := S16x16x128x768) S1x16x128x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x8x8.size a ≤ S16x16x8x8.size a
  hwx0_3 : ∀ i : grid0.Coords, EltTy.bits .i32 = 32 ∨ (Rect.block (s := S16x16x8x8) S1x16x8x8.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x8x8.size a ≤ S16x16x8x8.size a
  hwx0_4 : ∀ i : grid0.Coords, EltTy.bits .i32 = 32 ∨ (Rect.block (s := S16x16x8x8) S1x16x8x8.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x16x8x8.size a ≤ S16x16x8x8.size a
  hwx0_5 : ∀ i : grid0.Coords, EltTy.bits .i32 = 32 ∨ (Rect.block (s := S16x16x8x8) S1x16x8x8.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x16x768.size a ≤ S16x16x768.size a
  hwx0_6 : ∀ i : grid0.Coords, EltTy.bits .f32 = 32 ∨ (Rect.block (s := S16x16x768) S1x16x768.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x16x8x768.size a ≤ S16x16x8x768.size a
  hwx0_7 : ∀ i : grid0.Coords, EltTy.bits .f32 = 32 ∨ (Rect.block (s := S16x16x8x768) S1x16x8x768.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x16x8x768.size a ≤ S16x16x8x768.size a
  hwx0_8 : ∀ i : grid0.Coords, EltTy.bits .f32 = 32 ∨ (Rect.block (s := S16x16x8x768) S1x16x8x768.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x16x8x768.size a ≤ S16x16x8x768.size a
  hwx0_9 : ∀ i : grid0.Coords, EltTy.bits .f32 = 32 ∨ (Rect.block (s := S16x16x8x768) S1x16x8x768.size (cc0_transform_9 i) (hinb0_9 i)).WholeWords (EltTy.packing .f32)

variable [Facts₀]

def dot_S16x1x128_S16x128x768_S16x1x768_2_1_1_2_0_0 : DotDims S16x1x128 S16x128x768 S16x1x768 where
  lhsContracting := [2]
  rhsContracting := [1]
  lhsNonContracting := [1]
  rhsNonContracting := [2]
  lhsBatch := [0]
  rhsBatch := [0]
  wf := dot_S16x1x128_S16x128x768_S16x1x768_2_1_1_2_0_0_wf
def dot_S16x8x128_S16x128x768_S16x8x768_2_1_1_2_0_0 : DotDims S16x8x128 S16x128x768 S16x8x768 where
  lhsContracting := [2]
  rhsContracting := [1]
  lhsNonContracting := [1]
  rhsNonContracting := [2]
  lhsBatch := [0]
  rhsBatch := [0]
  wf := dot_S16x8x128_S16x128x768_S16x8x768_2_1_1_2_0_0_wf

abbrev win0_0 : Pipeline.Window sig grid0 :=
  Pipeline.Window.ofSpec (Memref.whole main_arg0) S1x16x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x16x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x16x128x768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x16x8x8.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x16x8x8.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x16x8x8.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_0) S1x16x768.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_1) S1x16x8x768.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_2) S1x16x8x768.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_3) S1x16x8x768.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16x16x128 : Shape := ⟨3, ![16, 16, 128]⟩
abbrev S16x16x128x768 : Shape := ⟨4, ![16, 16, 128, 768]⟩
abbrev S16x16x8x8 : Shape := ⟨4, ![16, 16, 8, 8]⟩
abbrev S16x16x128x1 : Shape := ⟨4, ![16, 16, 128, 1]⟩
abbrev S_ : Shape := ⟨0, ![]⟩
abbrev S16x16x768 : Shape := ⟨3, ![16, 16, 768]⟩
abbrev S16x16x1 : Shape := ⟨3, ![16, 16, 1]⟩
abbrev S16x16x8x8x1 : Shape := ⟨5, ![16, 16, 8, 8, 1]⟩
abbrev S16x16x1x1x128 : Shape := ⟨5, ![16, 16, 1, 1, 128]⟩
abbrev S16x16x8x8x128 : Shape := ⟨5, ![16, 16, 8, 8, 128]⟩
abbrev S16x16x8x128 : Shape := ⟨4, ![16, 16, 8, 128]⟩
abbrev S16x16x8 : Shape := ⟨3, ![16, 16, 8]⟩
abbrev S16x16x8x1 : Shape := ⟨4, ![16, 16, 8, 1]⟩
abbrev S16x16x8x768 : Shape := ⟨4, ![16, 16, 8, 768]⟩

abbrev nBuf : Space → Nat
  | .hbm => 122
  | .vmem => 0
  | .smem => 0
  | _ => 0

abbrev bufTy : (tb : Table) → Fin (tcTables nBuf tb) → BufTy
  | .hbm, ⟨0, _⟩ => ⟨S16x16x128, .i32⟩
  | .hbm, ⟨1, _⟩ => ⟨S16x16x128, .i32⟩
  | .hbm, ⟨2, _⟩ => ⟨S16x16x128x768, .f32⟩
  | .hbm, ⟨3, _⟩ => ⟨S16x16x8x8, .i32⟩
  | .hbm, ⟨4, _⟩ => ⟨S16x16x8x8, .i32⟩
  | .hbm, ⟨5, _⟩ => ⟨S16x16x8x8, .i32⟩
  | .hbm, ⟨6, _⟩ => ⟨S16x16x128, .f32⟩
  | .hbm, ⟨7, _⟩ => ⟨S16x16x128x1, .f32⟩
  | .hbm, ⟨8, _⟩ => ⟨S16x16x128x768, .f32⟩
  | .hbm, ⟨9, _⟩ => ⟨S16x16x128x768, .f32⟩
  | .hbm, ⟨10, _⟩ => ⟨S_, .f32⟩
  | .hbm, ⟨11, _⟩ => ⟨S16x16x768, .f32⟩
  | .hbm, ⟨12, _⟩ => ⟨S_, .f32⟩
  | .hbm, ⟨13, _⟩ => ⟨S16x16x1, .f32⟩
  | .hbm, ⟨14, _⟩ => ⟨S_, .f32⟩
  | .hbm, ⟨15, _⟩ => ⟨S_, .f32⟩
  | .hbm, ⟨16, _⟩ => ⟨S16x16x1, .f32⟩
  | .hbm, ⟨17, _⟩ => ⟨S16x16x1, .f32⟩
  | .hbm, ⟨18, _⟩ => ⟨S16x16x768, .f32⟩
  | .hbm, ⟨19, _⟩ => ⟨S16x16x768, .f32⟩
  | .hbm, ⟨20, _⟩ => ⟨S16x16x8x8x1, .i32⟩
  | .hbm, ⟨21, _⟩ => ⟨S16x16x1x1x128, .i32⟩
  | .hbm, ⟨22, _⟩ => ⟨S16x16x8x8x128, .i32⟩
  | .hbm, ⟨23, _⟩ => ⟨S16x16x8x8x128, .i32⟩
  | .hbm, ⟨24, _⟩ => ⟨S16x16x8x8x128, .i1⟩
  | .hbm, ⟨25, _⟩ => ⟨S16x16x8x8x128, .f32⟩
  | .hbm, ⟨26, _⟩ => ⟨S_, .f32⟩
  | .hbm, ⟨27, _⟩ => ⟨S16x16x8x8, .f32⟩
  | .hbm, ⟨28, _⟩ => ⟨S16x16x8x8x1, .f32⟩
  | .hbm, ⟨29, _⟩ => ⟨S_, .f32⟩
  | .hbm, ⟨30, _⟩ => ⟨S_, .f32⟩
  | .hbm, ⟨31, _⟩ => ⟨S16x16x8x8x1, .f32⟩
  | .hbm, ⟨32, _⟩ => ⟨S16x16x8x8x1, .f32⟩
  | .hbm, ⟨33, _⟩ => ⟨S_, .i32⟩
  | .hbm, ⟨34, _⟩ => ⟨S16x16x8x8, .i32⟩
  | .hbm, ⟨35, _⟩ => ⟨S16x16x8x8, .i1⟩
  | .hbm, ⟨36, _⟩ => ⟨S16x16x8x8, .f32⟩
  | .hbm, ⟨37, _⟩ => ⟨S16x16x8x8x1, .f32⟩
  | .hbm, ⟨38, _⟩ => ⟨S16x16x8x8x128, .f32⟩
  | .hbm, ⟨39, _⟩ => ⟨S16x16x8x8x128, .f32⟩
  | .hbm, ⟨40, _⟩ => ⟨S16x16x8x8x128, .f32⟩
  | .hbm, ⟨41, _⟩ => ⟨S16x16x8x8x128, .f32⟩
  | .hbm, ⟨42, _⟩ => ⟨S_, .f32⟩
  | .hbm, ⟨43, _⟩ => ⟨S16x16x8x128, .f32⟩
  | .hbm, ⟨44, _⟩ => ⟨S_, .f32⟩
  | .hbm, ⟨45, _⟩ => ⟨S16x16x8, .f32⟩
  | .hbm, ⟨46, _⟩ => ⟨S_, .f32⟩
  | .hbm, ⟨47, _⟩ => ⟨S_, .f32⟩
  | .hbm, ⟨48, _⟩ => ⟨S16x16x8, .f32⟩
  | .hbm, ⟨49, _⟩ => ⟨S16x16x8, .f32⟩
  | .hbm, ⟨50, _⟩ => ⟨S16x16x8x1, .f32⟩
  | .hbm, ⟨51, _⟩ => ⟨S16x16x8x768, .f32⟩
  | .hbm, ⟨52, _⟩ => ⟨S16x16x8x768, .f32⟩
  | .hbm, ⟨53, _⟩ => ⟨S16x16x8x768, .f32⟩
  | .hbm, ⟨54, _⟩ => ⟨S16x16x8x8x1, .i32⟩
  | .hbm, ⟨55, _⟩ => ⟨S16x16x1x1x128, .i32⟩
  | .hbm, ⟨56, _⟩ => ⟨S16x16x8x8x128, .i32⟩
  | .hbm, ⟨57, _⟩ => ⟨S16x16x8x8x128, .i32⟩
  | .hbm, ⟨58, _⟩ => ⟨S16x16x8x8x128, .i1⟩
  | .hbm, ⟨59, _⟩ => ⟨S16x16x8x8x128, .f32⟩
  | .hbm, ⟨60, _⟩ => ⟨S_, .f32⟩
  | .hbm, ⟨61, _⟩ => ⟨S16x16x8x8, .f32⟩
  | .hbm, ⟨62, _⟩ => ⟨S16x16x8x8x1, .f32⟩
  | .hbm, ⟨63, _⟩ => ⟨S_, .f32⟩
  | .hbm, ⟨64, _⟩ => ⟨S_, .f32⟩
  | .hbm, ⟨65, _⟩ => ⟨S16x16x8x8x1, .f32⟩
  | .hbm, ⟨66, _⟩ => ⟨S16x16x8x8x1, .f32⟩
  | .hbm, ⟨67, _⟩ => ⟨S_, .i32⟩
  | .hbm, ⟨68, _⟩ => ⟨S16x16x8x8, .i32⟩
  | .hbm, ⟨69, _⟩ => ⟨S16x16x8x8, .i1⟩
  | .hbm, ⟨70, _⟩ => ⟨S16x16x8x8, .f32⟩
  | .hbm, ⟨71, _⟩ => ⟨S16x16x8x8x1, .f32⟩
  | .hbm, ⟨72, _⟩ => ⟨S16x16x8x8x128, .f32⟩
  | .hbm, ⟨73, _⟩ => ⟨S16x16x8x8x128, .f32⟩
  | .hbm, ⟨74, _⟩ => ⟨S16x16x8x8x128, .f32⟩
  | .hbm, ⟨75, _⟩ => ⟨S16x16x8x8x128, .f32⟩
  | .hbm, ⟨76, _⟩ => ⟨S_, .f32⟩
  | .hbm, ⟨77, _⟩ => ⟨S16x16x8x128, .f32⟩
  | .hbm, ⟨78, _⟩ => ⟨S_, .f32⟩
  | .hbm, ⟨79, _⟩ => ⟨S16x16x8, .f32⟩
  | .hbm, ⟨80, _⟩ => ⟨S_, .f32⟩
  | .hbm, ⟨81, _⟩ => ⟨S_, .f32⟩
  | .hbm, ⟨82, _⟩ => ⟨S16x16x8, .f32⟩
  | .hbm, ⟨83, _⟩ => ⟨S16x16x8, .f32⟩
  | .hbm, ⟨84, _⟩ => ⟨S16x16x8x1, .f32⟩
  | .hbm, ⟨85, _⟩ => ⟨S16x16x8x768, .f32⟩
  | .hbm, ⟨86, _⟩ => ⟨S16x16x8x768, .f32⟩
  | .hbm, ⟨87, _⟩ => ⟨S16x16x8x768, .f32⟩
  | .hbm, ⟨88, _⟩ => ⟨S16x16x8x8x1, .i32⟩
  | .hbm, ⟨89, _⟩ => ⟨S16x16x1x1x128, .i32⟩
  | .hbm, ⟨90, _⟩ => ⟨S16x16x8x8x128, .i32⟩
  | .hbm, ⟨91, _⟩ => ⟨S16x16x8x8x128, .i32⟩
  | .hbm, ⟨92, _⟩ => ⟨S16x16x8x8x128, .i1⟩
  | .hbm, ⟨93, _⟩ => ⟨S16x16x8x8x128, .f32⟩
  | .hbm, ⟨94, _⟩ => ⟨S_, .f32⟩
  | .hbm, ⟨95, _⟩ => ⟨S16x16x8x8, .f32⟩
  | .hbm, ⟨96, _⟩ => ⟨S16x16x8x8x1, .f32⟩
  | .hbm, ⟨97, _⟩ => ⟨S_, .f32⟩
  | .hbm, ⟨98, _⟩ => ⟨S_, .f32⟩
  | .hbm, ⟨99, _⟩ => ⟨S16x16x8x8x1, .f32⟩
  | .hbm, ⟨100, _⟩ => ⟨S16x16x8x8x1, .f32⟩
  | .hbm, ⟨101, _⟩ => ⟨S_, .i32⟩
  | .hbm, ⟨102, _⟩ => ⟨S16x16x8x8, .i32⟩
  | .hbm, ⟨103, _⟩ => ⟨S16x16x8x8, .i1⟩
  | .hbm, ⟨104, _⟩ => ⟨S16x16x8x8, .f32⟩
  | .hbm, ⟨105, _⟩ => ⟨S16x16x8x8x1, .f32⟩
  | .hbm, ⟨106, _⟩ => ⟨S16x16x8x8x128, .f32⟩
  | .hbm, ⟨107, _⟩ => ⟨S16x16x8x8x128, .f32⟩
  | .hbm, ⟨108, _⟩ => ⟨S16x16x8x8x128, .f32⟩
  | .hbm, ⟨109, _⟩ => ⟨S16x16x8x8x128, .f32⟩
  | .hbm, ⟨110, _⟩ => ⟨S_, .f32⟩
  | .hbm, ⟨111, _⟩ => ⟨S16x16x8x128, .f32⟩
  | .hbm, ⟨112, _⟩ => ⟨S_, .f32⟩
  | .hbm, ⟨113, _⟩ => ⟨S16x16x8, .f32⟩
  | .hbm, ⟨114, _⟩ => ⟨S_, .f32⟩
  | .hbm, ⟨115, _⟩ => ⟨S_, .f32⟩
  | .hbm, ⟨116, _⟩ => ⟨S16x16x8, .f32⟩
  | .hbm, ⟨117, _⟩ => ⟨S16x16x8, .f32⟩
  | .hbm, ⟨118, _⟩ => ⟨S16x16x8x1, .f32⟩
  | .hbm, ⟨119, _⟩ => ⟨S16x16x8x768, .f32⟩
  | .hbm, ⟨120, _⟩ => ⟨S16x16x8x768, .f32⟩
  | .hbm, ⟨121, _⟩ => ⟨S16x16x8x768, .f32⟩
  | _, _ => ⟨S16x16x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_call1_v0 : Ref sig .tc := ⟨.hbm, 30, rfl⟩
abbrev main_call1_v1 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_cst_6 : Ref sig .tc := ⟨.hbm, 46, rfl⟩
abbrev main_call2_v0 : Ref sig .tc := ⟨.hbm, 47, rfl⟩
abbrev main_call2_v1 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_call3_v0 : Ref sig .tc := ⟨.hbm, 64, rfl⟩
abbrev main_call3_v1 : Ref sig .tc := ⟨.hbm, 65, rfl⟩
abbrev main_v41 : Ref sig .tc := ⟨.hbm, 66, rfl⟩
abbrev main_c_9 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_10 : Ref sig .tc := ⟨.hbm, 76, rfl⟩
abbrev main_v50 : Ref sig .tc := ⟨.hbm, 77, rfl⟩
abbrev main_cst_11 : Ref sig .tc := ⟨.hbm, 78, rfl⟩
abbrev main_v51 : Ref sig .tc := ⟨.hbm, 79, rfl⟩
abbrev main_cst_12 : Ref sig .tc := ⟨.hbm, 80, rfl⟩
abbrev main_call4_v0 : Ref sig .tc := ⟨.hbm, 81, rfl⟩
abbrev main_call4_v1 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_13 : Ref sig .tc := ⟨.hbm, 94, rfl⟩
abbrev main_v63 : Ref sig .tc := ⟨.hbm, 95, rfl⟩
abbrev main_v64 : Ref sig .tc := ⟨.hbm, 96, rfl⟩
abbrev main_cst_14 : Ref sig .tc := ⟨.hbm, 97, rfl⟩
abbrev main_call5_v0 : Ref sig .tc := ⟨.hbm, 98, rfl⟩
abbrev main_call5_v1 : Ref sig .tc := ⟨.hbm, 99, rfl⟩
abbrev main_v65 : Ref sig .tc := ⟨.hbm, 100, rfl⟩
abbrev main_c_15 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_16 : Ref sig .tc := ⟨.hbm, 110, rfl⟩
abbrev main_v74 : Ref sig .tc := ⟨.hbm, 111, rfl⟩
abbrev main_cst_17 : Ref sig .tc := ⟨.hbm, 112, rfl⟩
abbrev main_v75 : Ref sig .tc := ⟨.hbm, 113, rfl⟩
abbrev main_cst_18 : Ref sig .tc := ⟨.hbm, 114, rfl⟩
abbrev main_call6_v0 : Ref sig .tc := ⟨.hbm, 115, rfl⟩
abbrev main_call6_v1 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩

abbrev nD : Nat := 1
abbrev τ : Topo := Topo.v7x

variable {F : FTy → Type} [FloatOps F]

class Facts₀ : Prop where
  bcast_S16x16x128_S16x16x128x1_0_1_2 : S16x16x128.BroadcastsInDim S16x16x128x1 (![0, 1, 2] : Fin 3 → Fin S16x16x128x1.rank)
  bcast_S16x16x128x1_S16x16x128x768_0_1_2_3 : S16x16x128x1.BroadcastsInDim S16x16x128x768 (![0, 1, 2, 3] : Fin 4 → Fin S16x16x128x768.rank)
  reducesTo_S16x16x128x768_S16x16x768_d2 : S16x16x128x768.ReducesTo [2] S16x16x768
  h_S_ : 0 < S_.numel
  reducesTo_S16x16x128x1_S16x16x1_d2 : S16x16x128x1.ReducesTo [2] S16x16x1
  bcast_S_S16x16x1 : S_.BroadcastsInDim S16x16x1 (![] : Fin 0 → Fin S16x16x1.rank)
  bcast_S16x16x1_S16x16x768_0_1_2 : S16x16x1.BroadcastsInDim S16x16x768 (![0, 1, 2] : Fin 3 → Fin S16x16x768.rank)
  bcast_S16x16x8x8_S16x16x8x8x1_0_1_2_3 : S16x16x8x8.BroadcastsInDim S16x16x8x8x1 (![0, 1, 2, 3] : Fin 4 → Fin S16x16x8x8x1.rank)
  bcast_S16x16x128_S16x16x1x1x128_0_1_4 : S16x16x128.BroadcastsInDim S16x16x1x1x128 (![0, 1, 4] : Fin 3 → Fin S16x16x1x1x128.rank)
  bcast_S16x16x8x8x1_S16x16x8x8x128_0_1_2_3_4 : S16x16x8x8x1.BroadcastsInDim S16x16x8x8x128 (![0, 1, 2, 3, 4] : Fin 5 → Fin S16x16x8x8x128.rank)
  bcast_S16x16x1x1x128_S16x16x8x8x128_0_1_2_3_4 : S16x16x1x1x128.BroadcastsInDim S16x16x8x8x128 (![0, 1, 2, 3, 4] : Fin 5 → Fin S16x16x8x8x128.rank)
  reducesTo_S16x16x8x8x128_S16x16x8x8_d4 : S16x16x8x8x128.ReducesTo [4] S16x16x8x8
  bcast_S_S16x16x8x8x1 : S_.BroadcastsInDim S16x16x8x8x1 (![] : Fin 0 → Fin S16x16x8x8x1.rank)
  bcast_S_S16x16x8x8 : S_.BroadcastsInDim S16x16x8x8 (![] : Fin 0 → Fin S16x16x8x8.rank)
  reducesTo_S16x16x8x8x128_S16x16x8x128_d3 : S16x16x8x8x128.ReducesTo [3] S16x16x8x128
  reducesTo_S16x16x8x8x1_S16x16x8_d3_4 : S16x16x8x8x1.ReducesTo [3, 4] S16x16x8
  bcast_S_S16x16x8 : S_.BroadcastsInDim S16x16x8 (![] : Fin 0 → Fin S16x16x8.rank)
  bcast_S16x16x8_S16x16x8x1_0_1_2 : S16x16x8.BroadcastsInDim S16x16x8x1 (![0, 1, 2] : Fin 3 → Fin S16x16x8x1.rank)
  bcast_S16x16x8x1_S16x16x8x768_0_1_2_3 : S16x16x8x1.BroadcastsInDim S16x16x8x768 (![0, 1, 2, 3] : Fin 4 → Fin S16x16x8x768.rank)
  dot_S16x16x8x128_S16x16x128x768_S16x16x8x768_3_2_2_3_01_01_wf : DotDims.WF S16x16x8x128 S16x16x128x768 S16x16x8x768 [3] [2] [2] [3] [0, 1] [0, 1]

variable [Facts₀]

def dot_S16x16x8x128_S16x16x128x768_S16x16x8x768_3_2_2_3_01_01 : DotDims S16x16x8x128 S16x16x128x768 S16x16x8x768 where
  lhsContracting := [3]
  rhsContracting := [2]
  lhsNonContracting := [2]
  rhsNonContracting := [3]
  lhsBatch := [0, 1]
  rhsBatch := [0, 1]
  wf := dot_S16x16x8x128_S16x16x128x768_S16x16x8x768_3_2_2_3_01_01_wf

class Facts : Prop extends Facts₀ where

variable [Facts]
-- ==== Proof.Spec.lean ====
/-
  The mathematics of the four results, stated once and away from both programs.

  Inputs: sentence ids `sid[b,s,l]`, an integer mask `msk[b,s,l]`, embeddings `emb[b,s,l,d]` and, for each of the
  three argument kinds, token ids `tok[b,s,a,t]` (b, s < 16; l < 128; d < 768; a, t < 8).

  * The masked mean: with `m = msk` read as a (signed) integer and `c[b,s] = max 1 (∑ₗ m[b,s,l])`,
      mean[b,s,d] = (∑ₗ emb[b,s,l,d] · m[b,s,l]) / c[b,s].
    One program divides the sum, the other sums the quotients `m / c`; the two agree wherever every `emb` entry is a
    real number, because `c` is a real number that is at least 1 (`sum_div_eq`).
  * An argument embedding: with `match[b,s,a,t,l] = [tok[b,s,a,t] = sid[b,s,l]]`, `valid[b,s,a,t] = [tok[b,s,a,t] ≠ 1]`
    (both 0 or 1), `cnt = max 1 (∑ₗ match)`, `W[b,s,a,l] = ∑ₜ (match / cnt) · valid` and `nv[b,s,a] = max 1 (∑ₜ valid)`,
      out[b,s,a,d] = (∑ₗ W[b,s,a,l] · emb[b,s,l,d]) / nv[b,s,a].
    Both programs compute exactly this expression, so no law is needed for it.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The float word of 1.0 as an extended real (kept as the word: both programs spell the same one). -/
abbrev oneW : EReal := Ideal.ofBits .f32 0x3F800000#32

/-- A one-bit truth value as the extended real 0 or 1. -/
def ind (c : BitVec 1) : EReal := ((c.toNat : ℝ) : EReal)

/-- A 32-bit word read as a signed integer, as an extended real. -/
def sint (w : BitVec 32) : EReal := ((w.toInt : ℝ) : EReal)

/-- Widening a truth value to 32 bits without sign and then reading it signed gives the same 0 or 1. -/
theorem sint_setWidth (c : BitVec 1) : sint (c.setWidth 32) = ind c := by
  rcases BitVec.eq_zero_or_eq_one c with rfl | rfl <;> simp [sint, ind] <;> rfl

variable (sid msk : (⟨3, ![16, 16, 128]⟩ : Shape).Idx → BitVec 32)
variable (emb : (⟨4, ![16, 16, 128, 768]⟩ : Shape).Idx → EReal)
variable (tok : (⟨4, ![16, 16, 8, 8]⟩ : Shape).Idx → BitVec 32)

/-! ## The masked mean -/

/-- The mask entry at (b, s, l) as a number. -/
def maskAt (b s : Fin 16) (l : Fin 128) : EReal := sint (msk (ix3 b s l))

/-- The clipped number of mask entries of sentence (b, s): at least 1. -/
def maskCount (b s : Fin 16) : EReal := max oneW (∑ l : Fin 128, maskAt msk b s l)

/-- The mean as the quotient of the masked sum. -/
def meanOfSum (b s : Fin 16) (d : Fin 768) : EReal :=
  Ideal.div (∑ l : Fin 128, emb (ix4 b s l d) * maskAt msk b s l) (maskCount msk b s)

/-- The mean as the sum of the entries weighted by `mask / count`. -/
def meanOfWeights (b s : Fin 16) (d : Fin 768) : EReal :=
  ∑ l : Fin 128, Ideal.div (maskAt msk b s l) (maskCount msk b s) * emb (ix4 b s l d)

/-- The whole result array of the masked mean. -/
def meanArr : (⟨3, ![16, 16, 768]⟩ : Shape).Idx → EReal := fun i => meanOfSum msk emb (i 0) (i 1) (i 2)

/-! ## An argument embedding -/

/-- Token (b, s, a, t) equals sentence position (b, s, l): 1 or 0. -/
def matchAt (b s : Fin 16) (a t : Fin 8) (l : Fin 128) : EReal :=
  ind (IntOp.cmpi .eq (tok (ix4 b s a t)) (sid (ix3 b s l)))

/-- Token (b, s, a, t) is not the padding id 1: 1 or 0. -/
def validAt (b s : Fin 16) (a t : Fin 8) : EReal := ind (IntOp.cmpi .ne (tok (ix4 b s a t)) 1#32)

/-- The clipped number of sentence positions the token matches. -/
def matchCount (b s : Fin 16) (a t : Fin 8) : EReal := max oneW (∑ l : Fin 128, matchAt sid tok b s a t l)

/-- The weight of sentence position l for argument (b, s, a): over its valid tokens, the share of the token's matches
    that position l is. -/
def weightAt (b s : Fin 16) (a : Fin 8) (l : Fin 128) : EReal :=
  ∑ t : Fin 8, Ideal.div (matchAt sid tok b s a t l) (matchCount sid tok b s a t) * validAt tok b s a t

/-- The clipped number of valid tokens of argument (b, s, a). -/
def validCount (b s : Fin 16) (a : Fin 8) : EReal := max oneW (∑ t : Fin 8, validAt tok b s a t)

/-- The argument embedding at (b, s, a, d). -/
def argAt (b s : Fin 16) (a : Fin 8) (d : Fin 768) : EReal :=
  Ideal.div (∑ l : Fin 128, weightAt sid tok b s a l * emb (ix4 b s l d)) (validCount tok b s a)

/-- The whole result array of an argument embedding. -/
def argArr : (⟨4, ![16, 16, 8, 768]⟩ : Shape).Idx → EReal := fun i => argAt sid emb tok (i 0) (i 1) (i 2) (i 3)

/-! ## The one law: a real divisor moves across a finite sum of reals -/

/-- The float word of 1.0 denotes the real number 1. -/
theorem oneW_eq : oneW = ((1 : ℝ) : EReal) := by
  have h : Ideal.ofBits .f32 (IdealRules.sign_bit.onePat .f32) = 1 := IdealRules.sign_bit.ideal_onePat .f32
  have e : IdealRules.sign_bit.onePat .f32 = 0x3F800000#32 := rfl
  rw [e] at h
  rw [EReal.coe_one]
  exact h

/-- A finite sum of real numbers, taken in the extended reals, is the real sum. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- Over real entries `e` and real weights `m`, with a real divisor `c ≠ 0`: summing the quotients `m / c` times the
    entries is dividing the sum of the products. -/
theorem sum_div_eq {n : Nat} (e m : Fin n → ℝ) (c : ℝ) (hc : c ≠ 0) :
    (∑ l : Fin n, Ideal.div ((m l : ℝ) : EReal) ((c : ℝ) : EReal) * ((e l : ℝ) : EReal))
      = Ideal.div (∑ l : Fin n, ((e l : ℝ) : EReal) * ((m l : ℝ) : EReal)) ((c : ℝ) : EReal) := by
  simp only [Ideal.div_coe hc, ← EReal.coe_mul]
  rw [coe_sum, coe_sum, ← EReal.coe_mul]
  congr 1
  rw [Finset.sum_mul]
  refine Finset.sum_congr rfl fun l _ => ?_
  ring

end Cert.Spec

end
-- ==== Proof.LibLayout.lean ====
/-
  Shape casts that add or drop a UNIT axis somewhere other than the front, and broadcasts of a unit axis, read at an
  index given by coordinates: the forms a reduction with kept dimensions meets ([a] ↔ [a,1], [a,b] ↔ [a,1,b],
  [a,b] → [a,b,1], [a,b,c] → [a,b,c,1], [a,b] → [a,1,1,b]; [a,1] → [a,b], [a,b,1] → [a,b,c], [a,b,c,1] → [a,b,c,d],
  [a,1,1,d] → [a,b,c,d]). A shape cast keeps the row-major position, and a unit axis contributes nothing to it; a
  broadcast reads coordinate 0 on the operand's unit axes and the result's coordinate elsewhere.
-/
import Idealize.ShloMosaic.Lib.Pipeline.Value
import Idealize.ShloMosaic.Lib.ValueIdx

namespace Cert.LibLayout

open Idealize.ShloMosaic Idealize.ShloMosaic.ValueIdx

variable {α : Type}

/-! ## Shape casts -/

/-- `[a] → [a,1]`: at (p, u) the operand at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- `[a,b] → [a,1,b]`: at (p, u, q) the operand at (p, q). -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (q : Fin b) :
    shapeCast ⟨3, ![a, 1, b]⟩ x h (ix3 p u q) = x (ix2 p q) :=
  shapeCast_apply x h _ _ (by
    have hu : u.val = 0 := by omega
    rw [Shape.rowMajor_val_two, Shape.rowMajor_val_three]
    show p.val * b + q.val = (p.val * 1 + u.val) * b + q.val
    rw [hu, Nat.mul_one, Nat.add_zero])

/-- `[a,1,b] → [a,b]`: at (p, q) the operand at (p, 0, q). -/
theorem shapeCast_a1b_ab_apply {a b : ℕ} (x : (⟨3, ![a, 1, b]⟩ : Shape).Idx → α)
    (h : (⟨3, ![a, 1, b]⟩ : Shape).ShapeCasts ⟨2, ![a, b]⟩) (p : Fin a) (q : Fin b) :
    shapeCast ⟨2, ![a, b]⟩ x h (ix2 p q) = x (ix3 p (0 : Fin 1) q) :=
  shapeCast_apply x h _ _ (by
    rw [Shape.rowMajor_val_three, Shape.rowMajor_val_two]
    show (p.val * 1 + 0) * b + q.val = p.val * b + q.val
    rw [Nat.mul_one, Nat.add_zero])

/-- `[a,b] → [a,b,1]`: at (p, q, u) the operand at (p, q). -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- `[a,b,c] → [a,b,c,1]`: at (p, q, r, u) the operand at (p, q, r). -/
theorem shapeCast_abc_abc1_apply {a b c : ℕ} (x : (⟨3, ![a, b, c]⟩ : Shape).Idx → α)
    (h : (⟨3, ![a, b, c]⟩ : Shape).ShapeCasts ⟨4, ![a, b, c, 1]⟩) (p : Fin a) (q : Fin b) (r : Fin c) (u : Fin 1) :
    shapeCast ⟨4, ![a, b, c, 1]⟩ x h (ix4 p q r u) = x (ix3 p q r) :=
  shapeCast_apply x h _ _ (by
    have hu : u.val = 0 := by omega
    rw [Shape.rowMajor_val_three, Shape.rowMajor_val_four]
    show (p.val * b + q.val) * c + r.val = ((p.val * b + q.val) * c + r.val) * 1 + u.val
    rw [hu, Nat.mul_one, Nat.add_zero])

/-- `[a,b] → [a,1,1,b]`: at (p, u, v, q) the operand at (p, q). -/
theorem shapeCast_ab_a11b_apply {a b : ℕ} (x : (⟨2, ![a, b]⟩ : Shape).Idx → α)
    (h : (⟨2, ![a, b]⟩ : Shape).ShapeCasts ⟨4, ![a, 1, 1, b]⟩) (p : Fin a) (u v : Fin 1) (q : Fin b) :
    shapeCast ⟨4, ![a, 1, 1, b]⟩ x h (ix4 p u v q) = x (ix2 p q) :=
  shapeCast_apply x h _ _ (by
    have hu : u.val = 0 := by omega
    have hv : v.val = 0 := by omega
    rw [Shape.rowMajor_val_two, Shape.rowMajor_val_four]
    show p.val * b + q.val = ((p.val * 1 + u.val) * 1 + v.val) * b + q.val
    simp only [hu, hv, Nat.mul_one, Nat.add_zero])

/-! ## Broadcasts of unit axes -/

/-- `[a,1] → [a,b]`: at (p, q) the operand's entry of row p. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- `[a,b,1] → [a,b,c]`: at (p, q, r) the operand's entry of (p, q). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- `[a,b,c,1] → [a,b,c,d]`: at (p, q, r, s) the operand's entry of (p, q, r). -/
theorem broadcastTo_abc1_abcd_apply {a b c d : ℕ} (v : (⟨4, ![a, b, c, 1]⟩ : Shape).Idx → α)
    (h : (⟨4, ![a, b, c, 1]⟩ : Shape).Broadcasts ⟨4, ![a, b, c, d]⟩) (p : Fin a) (q : Fin b) (r : Fin c) (s : Fin d) :
    broadcastTo ⟨4, ![a, b, c, d]⟩ v h (ix4 p q r s) = v (ix4 p q r (0 : Fin 1)) := by
  refine broadcastTo_apply v h (ix4 p q r s) (ix4 p q r (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ =>
    show r.val = if c = 1 then 0 else r.val
    split
    · have := r.isLt; omega
    · rfl
  | ⟨3, _⟩ => rfl

/-- `[a,1,1,d] → [a,b,c,d]`: at (p, q, r, s) the operand's entry of (p, s). -/
theorem broadcastTo_a11d_abcd_apply {a b c d : ℕ} (v : (⟨4, ![a, 1, 1, d]⟩ : Shape).Idx → α)
    (h : (⟨4, ![a, 1, 1, d]⟩ : Shape).Broadcasts ⟨4, ![a, b, c, d]⟩) (p : Fin a) (q : Fin b) (r : Fin c) (s : Fin d) :
    broadcastTo ⟨4, ![a, b, c, d]⟩ v h (ix4 p q r s) = v (ix4 p (0 : Fin 1) (0 : Fin 1) s) := by
  refine broadcastTo_apply v h (ix4 p q r s) (ix4 p (0 : Fin 1) (0 : Fin 1) s) fun ax => ?_
  match ax with
  | ⟨0, _⟩ =>
    show p.val = if a = 1 then 0 else p.val
    split
    · have := p.isLt; omega
    · rfl
  | ⟨1, _⟩ => rfl
  | ⟨2, _⟩ => rfl
  | ⟨3, _⟩ =>
    show s.val = if d = 1 then 0 else s.val
    split
    · have := s.isLt; omega
    · rfl

end Cert.LibLayout
-- ==== Proof.KerMean.lean ====
/-
  The kernel body's payload for the masked mean, read at an index of the output block.

  The body forms, for the block of one batch entry, the weights `mask / count` (count = max 1 of the row's mask sum),
  views them as a stack of 1 × 128 rows and multiplies each by that sentence's 128 × 768 embeddings into a zero
  accumulator. At (s, d) that matrix product is the sum over l of weight[s, l] · emb[s, l, d]; the changes of float
  format on the way into the product are the identity on extended reals.
-/
import proofs.«172881_j90726889161116_1_alg».proof.Proof.Gen.KernelIdeal.Skeleton
import proofs.«172881_j90726889161116_1_alg».proof.Proof.Spec
import proofs.«172881_j90726889161116_1_alg».proof.Proof.LibLayout
import Idealize.ShloMosaic.Lib.ValueLayout
import Idealize.ShloMosaic.PureOps.Ideal.Laws

noncomputable section

open scoped BigOperators

namespace Cert.KerMean

open Cert.KernelIdeal Cert.KernelIdeal.Gen Idealize.ShloMosaic Idealize.ShloMosaic.ValueIdx Cert.Spec Cert.LibLayout

variable [Cert.KernelIdeal.Facts]

/-- The 1 × 128 by 128 × 768 product, batched over the 16 sentences. -/
abbrev D1 : DotDims S16x1x128 S16x128x768 S16x1x768 := dot_S16x1x128_S16x128x768_S16x1x768_2_1_1_2_0_0

/-- The left operand's coordinates at an output index `i` and a contraction index `q`: the batch axis and the row axis
    read `i`, the contracted axis reads `q`. -/
theorem lhs0 (i : S16x1x768.Idx) (q : D1.contr.Idx) : (D1.lhsIdx i q 0).val = (i 0).val := by
  unfold DotDims.lhsIdx
  rw [dif_pos (show (0 : Fin S16x1x128.rank) ∈ D1.lhsBatch by decide)]
  rfl
theorem lhs1 (i : S16x1x768.Idx) (q : D1.contr.Idx) : (D1.lhsIdx i q 1).val = (i 1).val := by
  unfold DotDims.lhsIdx
  rw [dif_neg (show ¬(1 : Fin S16x1x128.rank) ∈ D1.lhsBatch by decide),
    dif_pos (show (1 : Fin S16x1x128.rank) ∈ D1.lhsNonContracting by decide)]
  rfl
theorem lhs2 (i : S16x1x768.Idx) (q : D1.contr.Idx) : (D1.lhsIdx i q 2).val = (q ⟨0, by decide⟩).val :=
  D1.lhsIdx_val_of_single rfl i q

/-- The right operand's: the batch axis and the column axis read `i`, the contracted axis reads `q`. -/
theorem rhs0 (i : S16x1x768.Idx) (q : D1.contr.Idx) : (D1.rhsIdx i q 0).val = (i 0).val := by
  unfold DotDims.rhsIdx
  rw [dif_pos (show (0 : Fin S16x128x768.rank) ∈ D1.rhsBatch by decide)]
  rfl
theorem rhs1 (i : S16x1x768.Idx) (q : D1.contr.Idx) : (D1.rhsIdx i q 1).val = (q ⟨0, by decide⟩).val :=
  D1.rhsIdx_val_of_single rfl i q
theorem rhs2 (i : S16x1x768.Idx) (q : D1.contr.Idx) : (D1.rhsIdx i q 2).val = (i 2).val := by
  unfold DotDims.rhsIdx
  rw [dif_neg (show ¬(2 : Fin S16x128x768.rank) ∈ D1.rhsBatch by decide),
    dif_pos (show (2 : Fin S16x128x768.rank) ∈ D1.rhsNonContracting by decide)]
  rfl

/-- So at output (s, 0, d) and contraction coordinate l the left operand is read at (s, 0, l) … -/
theorem lhsIdx_eq (s : Fin 16) (d : Fin 768) (l : Fin 128) :
    D1.lhsIdx (ix3 s (0 : Fin 1) d) ((contrEquiv1 D1 128 rfl rfl).symm l) = ix3 s (0 : Fin 1) l := by
  have hk := contrEquiv1_symm_val D1 128 rfl rfl l
  refine funext fun a => Fin.ext ?_
  match a with
  | ⟨0, _⟩ => exact lhs0 _ _
  | ⟨1, _⟩ => exact lhs1 _ _
  | ⟨2, _⟩ => exact (lhs2 _ _).trans hk

/-- … and the right operand at (s, l, d). -/
theorem rhsIdx_eq (s : Fin 16) (d : Fin 768) (l : Fin 128) :
    D1.rhsIdx (ix3 s (0 : Fin 1) d) ((contrEquiv1 D1 128 rfl rfl).symm l) = ix3 s l d := by
  have hk := contrEquiv1_symm_val D1 128 rfl rfl l
  refine funext fun a => Fin.ext ?_
  match a with
  | ⟨0, _⟩ => exact rhs0 _ _
  | ⟨1, _⟩ => exact (rhs1 _ _).trans hk
  | ⟨2, _⟩ => exact rhs2 _ _

/-- A row of the block's mask as numbers: entry (s, l) of the mask block read as a signed integer. -/
theorem mask_apply (mb : Vec Ideal S1x16x128 .i32) (s : Fin 16) (l : Fin 128) :
    (sitofp .f32 (shapeCast S16x128 mb shapeCasts_S1x16x128_S16x128) : FVec Ideal S16x128 .f32) (ix2 s l)
      = sint (mb (ix3 (0 : Fin 1) s l)) := by
  show FloatOps.sitofp (F := Ideal) .f32 (shapeCast S16x128 mb shapeCasts_S1x16x128_S16x128 (ix2 s l)) = _
  rw [shapeCast_1ab_ab_apply]
  rfl

/-- The lane sum of a row of the mask block is the sum of its 128 entries. -/
theorem rowsum_apply (mb : Vec Ideal S1x16x128 .i32) (s : Fin 16) :
    (multiReduction .add [1] S16 (sitofp .f32 (shapeCast S16x128 mb shapeCasts_S1x16x128_S16x128) : FVec Ideal S16x128 .f32)
        0x00000000#32 reduces_S16x128_S16 (.inl rfl) rfl) (ix1 s)
      = ∑ l : Fin 128, sint (mb (ix3 (0 : Fin 1) s l)) := by
  refine (Ideal.multiReduction_add_single _ 0x00000000#32 reduces_S16x128_S16 (.inl rfl) rfl (ix1 s)).trans ?_
  refine Finset.sum_congr rfl fun l _ => ?_
  have e : reduces_S16x128_S16.lift (ix1 s) l = ix2 s l :=
    funext fun a => Fin.ext (by match a with | ⟨0, _⟩ => rfl | ⟨1, _⟩ => rfl)
  rw [e]
  exact mask_apply mb s l

/-- THE PAYLOAD AT (s, d): the sum over the 128 positions of `mask / count` times the embedding entry. -/
theorem pay_apply (mb : Vec Ideal S1x16x128 .i32) (eb : Vec Ideal S1x16x128x768 .f32) (u : Fin 1) (s : Fin 16) (d : Fin 768) :
    k0_pay4 (F := Ideal) mb eb (ix3 u s d)
      = ∑ l : Fin 128, Ideal.div (sint (mb (ix3 (0 : Fin 1) s l))) (max oneW (∑ l' : Fin 128, sint (mb (ix3 (0 : Fin 1) s l'))))
          * eb (ix4 (0 : Fin 1) s l d) := by
  unfold k0_pay4 k0_pay3
  refine (shapeCast_ab_1ab_apply _ _ u s d).trans ?_
  refine (shapeCast_a1b_ab_apply _ _ s d).trans ?_
  refine (Ideal.matmul_constant_zero_apply D1 none _ _ (ix3 s (0 : Fin 1) d)).trans ?_
  rw [← Equiv.sum_comp (contrEquiv1 D1 128 rfl rfl).symm]
  refine Finset.sum_congr rfl fun l _ => ?_
  rw [lhsIdx_eq s d l, rhsIdx_eq s d l]
  refine congrArg₂ (· * ·) ?_ ?_
  · refine (shapeCast_ab_a1b_apply _ _ s (0 : Fin 1) l).trans ?_
    refine congrArg₂ Ideal.div (mask_apply mb s l) ?_
    refine (broadcastTo_a1_ab_apply _ _ s l).trans ?_
    refine congrArg (max oneW) ?_
    refine (shapeCast_a_a1_apply _ _ s (0 : Fin 1)).trans ?_
    exact rowsum_apply mb s
  · exact shapeCast_1abc_abc_apply _ _ s l d

end Cert.KerMean

end
-- ==== Proof.KerArg.lean ====
/-
  The kernel body's payload for an argument embedding, read at an index of the output block.

  The body computes the three argument kinds by the same operations on the block of one batch entry; the printed
  payloads differ only in where the text was cut, so each is `argV` below of the block's sentence ids, embeddings and
  token ids. Read at (s, a, d):
    (∑ₗ W[s,a,l] · emb[s,l,d]) / max 1 (∑ₜ valid[s,a,t]),   W[s,a,l] = ∑ₜ (match[s,a,t,l] / max 1 (∑ₗ match[s,a,t,l])) · valid[s,a,t],
  with match = [tok[s,a,t] = sid[s,l]] and valid = [tok[s,a,t] ≠ 1] as the numbers 0 and 1 (a truth value widened
  without sign to 32 bits and read as a signed integer is 0 or 1).
-/
import proofs.«172881_j90726889161116_1_alg».proof.Proof.Gen.KernelIdeal.Skeleton
import proofs.«172881_j90726889161116_1_alg».proof.Proof.Spec
import proofs.«172881_j90726889161116_1_alg».proof.Proof.LibLayout
import Idealize.ShloMosaic.Lib.ValueLayout
import Idealize.ShloMosaic.PureOps.Ideal.Laws

noncomputable section

open scoped BigOperators

namespace Cert.KerArg

open Cert.KernelIdeal Cert.KernelIdeal.Gen Idealize.ShloMosaic Idealize.ShloMosaic.ValueIdx Cert.Spec Cert.LibLayout

variable [Cert.KernelIdeal.Facts]

/-! ## The common tree of operations -/

section Tree
variable {F : FTy → Type} [FloatOps F]

/-- Token equals sentence position, over (s, a, t, l), as a float 0 or 1. -/
def matchV (sid : IVec S16x128 32) (tok : IVec S16x8x8 32) : FVec F S16x8x8x128 .f32 :=
  sitofp .f32 (extui 32 (cmpi .eq
    (broadcastTo S16x8x8x128 (shapeCast S16x8x8x1 tok shapeCasts_S16x8x8_S16x8x8x1) broadcasts_S16x8x8x1_S16x8x8x128)
    (broadcastTo S16x8x8x128 (shapeCast S16x1x1x128 sid shapeCasts_S16x128_S16x1x1x128) broadcasts_S16x1x1x128_S16x8x8x128))
    natLt_1_32)

/-- Token is not the padding id, over (s, a, t), as a float 0 or 1. -/
def validV (tok : IVec S16x8x8 32) : FVec F S16x8x8 .f32 :=
  sitofp .f32 (extui 32 (cmpi .ne tok (broadcast S16x8x8 1#32)) natLt_1_32)

/-- The clipped match count, over (s, a, t, 1). -/
def countV (sid : IVec S16x128 32) (tok : IVec S16x8x8 32) : FVec F S16x8x8x1 .f32 :=
  maximumf (broadcast S16x8x8x1 (Scalar.ofBits .f32 0x3F800000#32))
    (shapeCast S16x8x8x1 (multiReduction .add [3] S16x8x8 (matchV (F := F) sid tok) 0x00000000#32 reduces_S16x8x8x128_S16x8x8 (.inl rfl) rfl)
      shapeCasts_S16x8x8_S16x8x8x1)

/-- The weights, over (s, a, l): the sum over the tokens of share times validity. -/
def weightV (sid : IVec S16x128 32) (tok : IVec S16x8x8 32) : FVec F S16x8x128 .f32 :=
  multiReduction .add [2] S16x8x128
    (mulf (divf (matchV (F := F) sid tok) (broadcastTo S16x8x8x128 (countV (F := F) sid tok) broadcasts_S16x8x8x1_S16x8x8x128))
      (broadcastTo S16x8x8x128 (shapeCast S16x8x8x1 (validV (F := F) tok) shapeCasts_S16x8x8_S16x8x8x1) broadcasts_S16x8x8x1_S16x8x8x128))
    0x00000000#32 reduces_S16x8x8x128_S16x8x128 (.inl rfl) rfl

/-- The clipped number of valid tokens, broadcast over d. -/
def nvalidV (tok : IVec S16x8x8 32) : FVec F S16x8x768 .f32 :=
  broadcastTo S16x8x768
    (shapeCast S16x8x1
      (maximumf (broadcast S16x8 (Scalar.ofBits .f32 0x3F800000#32))
        (multiReduction .add [2] S16x8 (validV (F := F) tok) 0x00000000#32 reduces_S16x8x8_S16x8 (.inl rfl) rfl))
      shapeCasts_S16x8_S16x8x1)
    broadcasts_S16x8x1_S16x8x768

/-- The stored block: weights times embeddings, over the valid count. -/
def argV (sid : IVec S16x128 32) (emb : FVec F S16x128x768 .bf16) (tok : IVec S16x8x8 32) : FVec F S1x16x8x768 .f32 :=
  shapeCast S1x16x8x768
    (divf (matmul dot_S16x8x128_S16x128x768_S16x8x768_2_1_1_2_0_0 none (truncf .bf16 (weightV (F := F) sid tok) bitsLt_bf16_f32) emb
        (constant S16x8x768 .f32 0x00000000#32))
      (nvalidV (F := F) tok))
    shapeCasts_S16x8x768_S1x16x8x768

/-- The first kind's printed payload is the common tree … -/
theorem pay_first (x0 : Vec F S1x16x128 .i32) (x2 : Vec F S1x16x128x768 .f32) (x3 : Vec F S1x16x8x8 .i32) :
    k0_pay9 (k0_pay3 x2) (k0_pay5 x3) (k0_pay6 x0 x3) (k0_pay7 x0 x3) k0_pay8 = argV (k0_pay2 x0) (k0_pay3 x2) (k0_pay5 x3) := rfl

/-- … the second kind's … -/
theorem pay_second (x0 : Vec F S1x16x128 .i32) (x2 : Vec F S1x16x128x768 .f32) (x4 : Vec F S1x16x8x8 .i32) :
    k0_pay13 (k0_pay3 x2) (k0_pay11 x4) (k0_pay12 (k0_pay2 x0) x4) = argV (k0_pay2 x0) (k0_pay3 x2) (k0_pay5 x4) := rfl

/-- … and the third kind's. -/
theorem pay_third (x0 : Vec F S1x16x128 .i32) (x2 : Vec F S1x16x128x768 .f32) (x5 : Vec F S1x16x8x8 .i32) :
    k0_pay1 (k0_pay16 (k0_pay2 x0) (k0_pay3 x2) x5) (k0_pay17 x5) = argV (k0_pay2 x0) (k0_pay3 x2) (k0_pay5 x5) := rfl

end Tree

/-! ## The pieces at coordinates -/

variable (sid : IVec S16x128 32) (tok : IVec S16x8x8 32)

/-- The block's match indicator at (s, a, t, l) as a number. -/
def bmatch (s : Fin 16) (a t : Fin 8) (l : Fin 128) : EReal := ind (IntOp.cmpi .eq (tok (ix3 s a t)) (sid (ix2 s l)))

/-- The block's validity indicator at (s, a, t) as a number. -/
def bvalid (s : Fin 16) (a t : Fin 8) : EReal := ind (IntOp.cmpi .ne (tok (ix3 s a t)) 1#32)

theorem matchV_apply (s : Fin 16) (a t : Fin 8) (l : Fin 128) :
    matchV (F := Ideal) sid tok (ix4 s a t l) = bmatch sid tok s a t l := by
  show sint ((IntOp.cmpi .eq
      (broadcastTo S16x8x8x128 (shapeCast S16x8x8x1 tok shapeCasts_S16x8x8_S16x8x8x1) broadcasts_S16x8x8x1_S16x8x8x128 (ix4 s a t l))
      (broadcastTo S16x8x8x128 (shapeCast S16x1x1x128 sid shapeCasts_S16x128_S16x1x1x128) broadcasts_S16x1x1x128_S16x8x8x128 (ix4 s a t l))).setWidth 32) = _
  rw [broadcastTo_abc1_abcd_apply, shapeCast_abc_abc1_apply, broadcastTo_a11d_abcd_apply, shapeCast_ab_a11b_apply]
  exact sint_setWidth _

theorem validV_apply (s : Fin 16) (a t : Fin 8) : validV (F := Ideal) tok (ix3 s a t) = bvalid tok s a t :=
  sint_setWidth _

theorem countV_apply (s : Fin 16) (a t : Fin 8) (u : Fin 1) :
    countV (F := Ideal) sid tok (ix4 s a t u) = max oneW (∑ l : Fin 128, bmatch sid tok s a t l) := by
  unfold countV
  refine congrArg (max oneW) ?_
  refine (shapeCast_abc_abc1_apply _ _ s a t u).trans ?_
  refine (Ideal.multiReduction_add_single _ 0x00000000#32 reduces_S16x8x8x128_S16x8x8 (.inl rfl) rfl (ix3 s a t)).trans ?_
  refine Finset.sum_congr rfl fun l _ => ?_
  have e : reduces_S16x8x8x128_S16x8x8.lift (ix3 s a t) l = ix4 s a t l :=
    funext fun c => Fin.ext (by match c with | ⟨0, _⟩ => rfl | ⟨1, _⟩ => rfl | ⟨2, _⟩ => rfl | ⟨3, _⟩ => rfl)
  rw [e]
  exact matchV_apply sid tok s a t l

theorem weightV_apply (s : Fin 16) (a : Fin 8) (l : Fin 128) :
    weightV (F := Ideal) sid tok (ix3 s a l)
      = ∑ t : Fin 8, Ideal.div (bmatch sid tok s a t l) (max oneW (∑ l' : Fin 128, bmatch sid tok s a t l')) * bvalid tok s a t := by
  unfold weightV
  refine (Ideal.multiReduction_add_single _ 0x00000000#32 reduces_S16x8x8x128_S16x8x128 (.inl rfl) rfl (ix3 s a l)).trans ?_
  refine Finset.sum_congr rfl fun t _ => ?_
  have e : reduces_S16x8x8x128_S16x8x128.lift (ix3 s a l) t = ix4 s a t l :=
    funext fun c => Fin.ext (by match c with | ⟨0, _⟩ => rfl | ⟨1, _⟩ => rfl | ⟨2, _⟩ => rfl | ⟨3, _⟩ => rfl)
  rw [e]
  refine congrArg₂ (· * ·) (congrArg₂ Ideal.div (matchV_apply sid tok s a t l) ?_) ?_
  · refine (broadcastTo_abc1_abcd_apply _ _ s a t l).trans ?_
    exact countV_apply sid tok s a t (0 : Fin 1)
  · refine (broadcastTo_abc1_abcd_apply _ _ s a t l).trans ?_
    refine (shapeCast_abc_abc1_apply _ _ s a t (0 : Fin 1)).trans ?_
    exact validV_apply tok s a t

theorem nvalidV_apply (s : Fin 16) (a : Fin 8) (d : Fin 768) :
    nvalidV (F := Ideal) tok (ix3 s a d) = max oneW (∑ t : Fin 8, bvalid tok s a t) := by
  unfold nvalidV
  refine (broadcastTo_ab1_abc_apply _ _ s a d).trans ?_
  refine (shapeCast_ab_ab1_apply _ _ s a (0 : Fin 1)).trans ?_
  refine congrArg (max oneW) ?_
  refine (Ideal.multiReduction_add_single _ 0x00000000#32 reduces_S16x8x8_S16x8 (.inl rfl) rfl (ix2 s a)).trans ?_
  refine Finset.sum_congr rfl fun t _ => ?_
  have e : reduces_S16x8x8_S16x8.lift (ix2 s a) t = ix3 s a t :=
    funext fun c => Fin.ext (by match c with | ⟨0, _⟩ => rfl | ⟨1, _⟩ => rfl | ⟨2, _⟩ => rfl)
  rw [e]
  exact validV_apply tok s a t

/-! ## The 8 × 128 by 128 × 768 product, batched over the 16 sentences -/

abbrev D8 : DotDims S16x8x128 S16x128x768 S16x8x768 := dot_S16x8x128_S16x128x768_S16x8x768_2_1_1_2_0_0

theorem lhs0 (i : S16x8x768.Idx) (q : D8.contr.Idx) : (D8.lhsIdx i q 0).val = (i 0).val := by
  unfold DotDims.lhsIdx
  rw [dif_pos (show (0 : Fin S16x8x128.rank) ∈ D8.lhsBatch by decide)]
  rfl
theorem lhs1 (i : S16x8x768.Idx) (q : D8.contr.Idx) : (D8.lhsIdx i q 1).val = (i 1).val := by
  unfold DotDims.lhsIdx
  rw [dif_neg (show ¬(1 : Fin S16x8x128.rank) ∈ D8.lhsBatch by decide),
    dif_pos (show (1 : Fin S16x8x128.rank) ∈ D8.lhsNonContracting by decide)]
  rfl
theorem lhs2 (i : S16x8x768.Idx) (q : D8.contr.Idx) : (D8.lhsIdx i q 2).val = (q ⟨0, by decide⟩).val :=
  D8.lhsIdx_val_of_single rfl i q
theorem rhs0 (i : S16x8x768.Idx) (q : D8.contr.Idx) : (D8.rhsIdx i q 0).val = (i 0).val := by
  unfold DotDims.rhsIdx
  rw [dif_pos (show (0 : Fin S16x128x768.rank) ∈ D8.rhsBatch by decide)]
  rfl
theorem rhs1 (i : S16x8x768.Idx) (q : D8.contr.Idx) : (D8.rhsIdx i q 1).val = (q ⟨0, by decide⟩).val :=
  D8.rhsIdx_val_of_single rfl i q
theorem rhs2 (i : S16x8x768.Idx) (q : D8.contr.Idx) : (D8.rhsIdx i q 2).val = (i 2).val := by
  unfold DotDims.rhsIdx
  rw [dif_neg (show ¬(2 : Fin S16x128x768.rank) ∈ D8.rhsBatch by decide),
    dif_pos (show (2 : Fin S16x128x768.rank) ∈ D8.rhsNonContracting by decide)]
  rfl

/-- At output (s, a, d) and contraction coordinate l the left operand is read at (s, a, l) … -/
theorem lhsIdx_eq (s : Fin 16) (a : Fin 8) (d : Fin 768) (l : Fin 128) :
    D8.lhsIdx (ix3 s a d) ((contrEquiv1 D8 128 rfl rfl).symm l) = ix3 s a l := by
  have hk := contrEquiv1_symm_val D8 128 rfl rfl l
  refine funext fun c => Fin.ext ?_
  match c with
  | ⟨0, _⟩ => exact lhs0 _ _
  | ⟨1, _⟩ => exact lhs1 _ _
  | ⟨2, _⟩ => exact (lhs2 _ _).trans hk

/-- … and the right operand at (s, l, d). -/
theorem rhsIdx_eq (s : Fin 16) (a : Fin 8) (d : Fin 768) (l : Fin 128) :
    D8.rhsIdx (ix3 s a d) ((contrEquiv1 D8 128 rfl rfl).symm l) = ix3 s l d := by
  have hk := contrEquiv1_symm_val D8 128 rfl rfl l
  refine funext fun c => Fin.ext ?_
  match c with
  | ⟨0, _⟩ => exact rhs0 _ _
  | ⟨1, _⟩ => exact (rhs1 _ _).trans hk
  | ⟨2, _⟩ => exact rhs2 _ _

/-! ## The block at (s, a, d) -/

/-- THE PAYLOAD AT (s, a, d): weights times embeddings summed over the 128 positions, over the clipped valid count. -/
theorem argV_apply (emb : FVec Ideal S16x128x768 .bf16) (u : Fin 1) (s : Fin 16) (a : Fin 8) (d : Fin 768) :
    argV (F := Ideal) sid emb tok (ix4 u s a d)
      = Ideal.div
          (∑ l : Fin 128,
            (∑ t : Fin 8, Ideal.div (bmatch sid tok s a t l) (max oneW (∑ l' : Fin 128, bmatch sid tok s a t l')) * bvalid tok s a t)
              * emb (ix3 s l d))
          (max oneW (∑ t : Fin 8, bvalid tok s a t)) := by
  unfold argV
  refine (shapeCast_abc_1abc_apply _ _ u s a d).trans ?_
  refine congrArg₂ Ideal.div ?_ (nvalidV_apply tok s a d)
  refine (Ideal.matmul_constant_zero_apply D8 none _ _ (ix3 s a d)).trans ?_
  rw [← Equiv.sum_comp (contrEquiv1 D8 128 rfl rfl).symm]
  refine Finset.sum_congr rfl fun l _ => ?_
  rw [lhsIdx_eq s a d l, rhsIdx_eq s a d l]
  exact congrArg (· * emb (ix3 s l d)) (weightV_apply sid tok s a l)

end Cert.KerArg

end
-- ==== Proof.KerValue.lean ====
/-
  From blocks to arrays: what the kernel's run leaves in each of its four result arrays, as ONE function of the
  argument arrays.

  The grid has one point per batch entry b. Every window's block at point b is row b of its array (block index
  (b, 0, 0[, 0]), block extents 1 × the rest), so an entry (0, s, …) of an input block is entry (b, s, …) of the argument,
  and the block point b writes back is row b of the result. The sixteen blocks tile each result array, so after the run
  the array is the function the points wrote block by block: for the masked mean, the sum of the weighted entries (the
  form the body computes); for each argument kind, the argument embedding of the specification.
-/
import proofs.«172881_j90726889161116_1_alg».proof.Proof.KernelValueBlocks
import proofs.«172881_j90726889161116_1_alg».proof.Proof.KerMean
import proofs.«172881_j90726889161116_1_alg».proof.Proof.KerArg
import Idealize.ShloMosaic.Lib.Pipeline.Value
import Idealize.ShloMosaic.Lib.ValueLayout

noncomputable section

open scoped BigOperators

namespace Cert.KerValue

open Cert.KernelIdeal Cert.KernelIdeal.Gen Cert.KernelIdeal.ValueP Idealize.ShloMosaic Idealize.ShloMosaic.TcCoe Idealize.SL.Sem
open Idealize.ShloMosaic.ValueIdx Cert.Spec
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The masked mean in the form the body computes it: the entries weighted by `mask / count`, summed. -/
def meanArrW (msk : S16x16x128.Idx → BitVec 32) (emb : S16x16x128x768.Idx → EReal) : S16x16x768.Idx → EReal :=
  fun i => meanOfWeights msk emb (i 0) (i 1) (i 2)

/-! ## The index maps, decided over the sixteen points -/

/-- Every input window's block index at point t is (t, 0, 0[, 0]). -/
theorem idx_in : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 4) = t.val ∧ win0_2.index t (1 : Fin 4) = 0 ∧ win0_2.index t (2 : Fin 4) = 0 ∧ win0_2.index t (3 : Fin 4) = 0)
    ∧ (win0_3.index t (0 : Fin 4) = t.val ∧ win0_3.index t (1 : Fin 4) = 0 ∧ win0_3.index t (2 : Fin 4) = 0 ∧ win0_3.index t (3 : Fin 4) = 0)
    ∧ (win0_4.index t (0 : Fin 4) = t.val ∧ win0_4.index t (1 : Fin 4) = 0 ∧ win0_4.index t (2 : Fin 4) = 0 ∧ win0_4.index t (3 : Fin 4) = 0)
    ∧ (win0_5.index t (0 : Fin 4) = t.val ∧ win0_5.index t (1 : Fin 4) = 0 ∧ win0_5.index t (2 : Fin 4) = 0 ∧ win0_5.index t (3 : Fin 4) = 0) :=
  (by decide +kernel : ∀ t : Fin grid0.N, _)

/-- And so is every output window's. -/
theorem idx_out : ∀ t : Fin cfg0.N,
    (win0_6.index t (0 : Fin 3) = t.val ∧ win0_6.index t (1 : Fin 3) = 0 ∧ win0_6.index t (2 : Fin 3) = 0)
    ∧ (win0_7.index t (0 : Fin 4) = t.val ∧ win0_7.index t (1 : Fin 4) = 0 ∧ win0_7.index t (2 : Fin 4) = 0 ∧ win0_7.index t (3 : Fin 4) = 0)
    ∧ (win0_8.index t (0 : Fin 4) = t.val ∧ win0_8.index t (1 : Fin 4) = 0 ∧ win0_8.index t (2 : Fin 4) = 0 ∧ win0_8.index t (3 : Fin 4) = 0)
    ∧ (win0_9.index t (0 : Fin 4) = t.val ∧ win0_9.index t (1 : Fin 4) = 0 ∧ win0_9.index t (2 : Fin 4) = 0 ∧ win0_9.index t (3 : Fin 4) = 0) :=
  (by decide +kernel : ∀ t : Fin grid0.N, _)

/-! ## An input block's entries are the argument's entries of batch row t -/

/-- The sentence-id block. -/
theorem blk_sid (c : Dev nD) (t : Fin cfg0.N) (b : Fin 16) (hb : b.val = t.val) (s : Fin 16) (l : Fin 128) :
    (iblk m c 0 t : Vec Ideal S1x16x128 .i32) (ix3 (0 : Fin 1) s l)
      = (m ((c : Thread nD τ).loc main_arg0) : S16x16x128.Idx → BitVec 32) (ix3 b s l) := by
  obtain ⟨e0, e1, e2⟩ := (idx_in t).1
  unfold iblk
  rw [View.read_apply]
  show V m c main_arg0 _ = m (c.tc.loc main_arg0) _
  unfold V
  congr 1
  funext ax
  apply Fin.ext
  match ax with
  | ⟨0, _⟩ => show win0_0.index t (0 : Fin 3) * 1 + 1 * 0 = b.val; rw [e0, hb]; omega
  | ⟨1, _⟩ => show win0_0.index t (1 : Fin 3) * 16 + 1 * s.val = s.val; rw [e1]; omega
  | ⟨2, _⟩ => show win0_0.index t (2 : Fin 3) * 128 + 1 * l.val = l.val; rw [e2]; omega

/-- The mask block. -/
theorem blk_msk (c : Dev nD) (t : Fin cfg0.N) (b : Fin 16) (hb : b.val = t.val) (s : Fin 16) (l : Fin 128) :
    (iblk m c 1 t : Vec Ideal S1x16x128 .i32) (ix3 (0 : Fin 1) s l)
      = (m ((c : Thread nD τ).loc main_arg1) : S16x16x128.Idx → BitVec 32) (ix3 b s l) := by
  obtain ⟨e0, e1, e2⟩ := (idx_in t).2.1
  unfold iblk
  rw [View.read_apply]
  show V m c main_arg1 _ = m (c.tc.loc main_arg1) _
  unfold V
  congr 1
  funext ax
  apply Fin.ext
  match ax with
  | ⟨0, _⟩ => show win0_1.index t (0 : Fin 3) * 1 + 1 * 0 = b.val; rw [e0, hb]; omega
  | ⟨1, _⟩ => show win0_1.index t (1 : Fin 3) * 16 + 1 * s.val = s.val; rw [e1]; omega
  | ⟨2, _⟩ => show win0_1.index t (2 : Fin 3) * 128 + 1 * l.val = l.val; rw [e2]; omega

/-- The embeddings block. -/
theorem blk_emb (c : Dev nD) (t : Fin cfg0.N) (b : Fin 16) (hb : b.val = t.val) (s : Fin 16) (l : Fin 128) (d : Fin 768) :
    (iblk m c 2 t : Vec Ideal S1x16x128x768 .f32) (ix4 (0 : Fin 1) s l d)
      = (m ((c : Thread nD τ).loc main_arg2) : S16x16x128x768.Idx → EReal) (ix4 b s l d) := by
  obtain ⟨e0, e1, e2, e3⟩ := (idx_in t).2.2.1
  unfold iblk
  rw [View.read_apply]
  show V m c main_arg2 _ = m (c.tc.loc main_arg2) _
  unfold V
  congr 1
  funext ax
  apply Fin.ext
  match ax with
  | ⟨0, _⟩ => show win0_2.index t (0 : Fin 4) * 1 + 1 * 0 = b.val; rw [e0, hb]; omega
  | ⟨1, _⟩ => show win0_2.index t (1 : Fin 4) * 16 + 1 * s.val = s.val; rw [e1]; omega
  | ⟨2, _⟩ => show win0_2.index t (2 : Fin 4) * 128 + 1 * l.val = l.val; rw [e2]; omega
  | ⟨3, _⟩ => show win0_2.index t (3 : Fin 4) * 768 + 1 * d.val = d.val; rw [e3]; omega

/-- An entry of the token block of window 3 at point t is the token array's entry of batch row t. -/
theorem blk_tok3 (c : Dev nD) (t : Fin cfg0.N) (b : Fin 16) (hb : b.val = t.val) (s : Fin 16) (a k : Fin 8) :
    (iblk m c 3 t : Vec Ideal S1x16x8x8 .i32) (ix4 (0 : Fin 1) s a k)
      = (m ((c : Thread nD τ).loc main_arg3) : S16x16x8x8.Idx → BitVec 32) (ix4 b s a k) := by
  obtain ⟨e0, e1, e2, e3⟩ := (idx_in t).2.2.2.1
  unfold iblk
  rw [View.read_apply]
  show V m c main_arg3 _ = m (c.tc.loc main_arg3) _
  unfold V
  congr 1
  funext ax
  apply Fin.ext
  match ax with
  | ⟨0, _⟩ => show win0_3.index t (0 : Fin 4) * 1 + 1 * 0 = b.val; rw [e0, hb]; omega
  | ⟨1, _⟩ => show win0_3.index t (1 : Fin 4) * 16 + 1 * s.val = s.val; rw [e1]; omega
  | ⟨2, _⟩ => show win0_3.index t (2 : Fin 4) * 8 + 1 * a.val = a.val; rw [e2]; omega
  | ⟨3, _⟩ => show win0_3.index t (3 : Fin 4) * 8 + 1 * k.val = k.val; rw [e3]; omega

/-- An entry of the token block of window 4 at point t is the token array's entry of batch row t. -/
theorem blk_tok4 (c : Dev nD) (t : Fin cfg0.N) (b : Fin 16) (hb : b.val = t.val) (s : Fin 16) (a k : Fin 8) :
    (iblk m c 4 t : Vec Ideal S1x16x8x8 .i32) (ix4 (0 : Fin 1) s a k)
      = (m ((c : Thread nD τ).loc main_arg4) : S16x16x8x8.Idx → BitVec 32) (ix4 b s a k) := by
  obtain ⟨e0, e1, e2, e3⟩ := (idx_in t).2.2.2.2.1
  unfold iblk
  rw [View.read_apply]
  show V m c main_arg4 _ = m (c.tc.loc main_arg4) _
  unfold V
  congr 1
  funext ax
  apply Fin.ext
  match ax with
  | ⟨0, _⟩ => show win0_4.index t (0 : Fin 4) * 1 + 1 * 0 = b.val; rw [e0, hb]; omega
  | ⟨1, _⟩ => show win0_4.index t (1 : Fin 4) * 16 + 1 * s.val = s.val; rw [e1]; omega
  | ⟨2, _⟩ => show win0_4.index t (2 : Fin 4) * 8 + 1 * a.val = a.val; rw [e2]; omega
  | ⟨3, _⟩ => show win0_4.index t (3 : Fin 4) * 8 + 1 * k.val = k.val; rw [e3]; omega

/-- An entry of the token block of window 5 at point t is the token array's entry of batch row t. -/
theorem blk_tok5 (c : Dev nD) (t : Fin cfg0.N) (b : Fin 16) (hb : b.val = t.val) (s : Fin 16) (a k : Fin 8) :
    (iblk m c 5 t : Vec Ideal S1x16x8x8 .i32) (ix4 (0 : Fin 1) s a k)
      = (m ((c : Thread nD τ).loc main_arg5) : S16x16x8x8.Idx → BitVec 32) (ix4 b s a k) := by
  obtain ⟨e0, e1, e2, e3⟩ := (idx_in t).2.2.2.2.2
  unfold iblk
  rw [View.read_apply]
  show V m c main_arg5 _ = m (c.tc.loc main_arg5) _
  unfold V
  congr 1
  funext ax
  apply Fin.ext
  match ax with
  | ⟨0, _⟩ => show win0_5.index t (0 : Fin 4) * 1 + 1 * 0 = b.val; rw [e0, hb]; omega
  | ⟨1, _⟩ => show win0_5.index t (1 : Fin 4) * 16 + 1 * s.val = s.val; rw [e1]; omega
  | ⟨2, _⟩ => show win0_5.index t (2 : Fin 4) * 8 + 1 * a.val = a.val; rw [e2]; omega
  | ⟨3, _⟩ => show win0_5.index t (3 : Fin 4) * 8 + 1 * k.val = k.val; rw [e3]; omega

/-! ## One point, over plain vectors: the payload at a block index is the whole-array function at the array index -/

/-- The mean payload of blocks that are row b of the arguments, at block index y, is the weighted-sum form at the array
    index with batch coordinate b and y's other coordinates. -/
theorem mean_point (mb : Vec Ideal S1x16x128 .i32) (eb : Vec Ideal S1x16x128x768 .f32)
    (msk : S16x16x128.Idx → BitVec 32) (emb : S16x16x128x768.Idx → EReal) (b : Fin 16)
    (hm : ∀ (s : Fin 16) (l : Fin 128), mb (ix3 (0 : Fin 1) s l) = msk (ix3 b s l))
    (he : ∀ (s : Fin 16) (l : Fin 128) (d : Fin 768), eb (ix4 (0 : Fin 1) s l d) = emb (ix4 b s l d))
    (y : S1x16x768.Idx) (i : S16x16x768.Idx) (h0 : (i 0).val = b.val) (h1 : (i 1).val = (y 1).val) (h2 : (i 2).val = (y 2).val) :
    k0_pay4 (F := Ideal) mb eb y = meanArrW msk emb i := by
  obtain ⟨u, s, d, rfl⟩ : ∃ (u : Fin 1) (s : Fin 16) (d : Fin 768), y = ix3 u s d := ⟨y 0, y 1, y 2, eq_ix3 y⟩
  obtain ⟨b', s', d', rfl⟩ : ∃ (b' s' : Fin 16) (d' : Fin 768), i = ix3 b' s' d' := ⟨i 0, i 1, i 2, eq_ix3 i⟩
  obtain rfl : b = b' := Fin.ext h0.symm
  obtain rfl : s = s' := Fin.ext h1.symm
  obtain rfl : d = d' := Fin.ext h2.symm
  rw [KerMean.pay_apply]
  simp only [hm, he]
  rfl

/-- The argument payload likewise is the argument embedding of the specification. -/
theorem arg_point (sb : Vec Ideal S1x16x128 .i32) (eb : Vec Ideal S1x16x128x768 .f32) (tb : Vec Ideal S1x16x8x8 .i32)
    (sid : S16x16x128.Idx → BitVec 32) (emb : S16x16x128x768.Idx → EReal) (tok : S16x16x8x8.Idx → BitVec 32) (b : Fin 16)
    (hs : ∀ (s : Fin 16) (l : Fin 128), sb (ix3 (0 : Fin 1) s l) = sid (ix3 b s l))
    (he : ∀ (s : Fin 16) (l : Fin 128) (d : Fin 768), eb (ix4 (0 : Fin 1) s l d) = emb (ix4 b s l d))
    (ht : ∀ (s : Fin 16) (a k : Fin 8), tb (ix4 (0 : Fin 1) s a k) = tok (ix4 b s a k))
    (y : S1x16x8x768.Idx) (i : S16x16x8x768.Idx) (h0 : (i 0).val = b.val) (h1 : (i 1).val = (y 1).val)
    (h2 : (i 2).val = (y 2).val) (h3 : (i 3).val = (y 3).val) :
    KerArg.argV (F := Ideal) (k0_pay2 sb) (k0_pay3 eb) (k0_pay5 tb) y = argArr sid emb tok i := by
  obtain ⟨u, s, a, d, rfl⟩ : ∃ (u : Fin 1) (s : Fin 16) (a : Fin 8) (d : Fin 768), y = ix4 u s a d :=
    ⟨y 0, y 1, y 2, y 3, eq_ix4 y⟩
  obtain ⟨b', s', a', d', rfl⟩ : ∃ (b' s' : Fin 16) (a' : Fin 8) (d' : Fin 768), i = ix4 b' s' a' d' :=
    ⟨i 0, i 1, i 2, i 3, eq_ix4 i⟩
  obtain rfl : b = b' := Fin.ext h0.symm
  obtain rfl : s = s' := Fin.ext h1.symm
  obtain rfl : a = a' := Fin.ext h2.symm
  obtain rfl : d = d' := Fin.ext h3.symm
  have hS : ∀ (s : Fin 16) (l : Fin 128), (k0_pay2 (F := Ideal) sb) (ix2 s l) = sid (ix3 b s l) := fun s l =>
    (shapeCast_1ab_ab_apply _ _ s l).trans (hs s l)
  have hT : ∀ (s : Fin 16) (a k : Fin 8), (k0_pay5 (F := Ideal) tb) (ix3 s a k) = tok (ix4 b s a k) := fun s a k =>
    (shapeCast_1abc_abc_apply _ _ s a k).trans (ht s a k)
  have hE : ∀ (s : Fin 16) (l : Fin 128) (d : Fin 768), (k0_pay3 (F := Ideal) eb) (ix3 s l d) = emb (ix4 b s l d) := fun s l d =>
    (shapeCast_1abc_abc_apply _ _ s l d).trans (he s l d)
  have hM : ∀ (s : Fin 16) (a k : Fin 8) (l : Fin 128),
      KerArg.bmatch (k0_pay2 (F := Ideal) sb) (k0_pay5 (F := Ideal) tb) s a k l = matchAt sid tok b s a k l := fun s a k l => by
    unfold KerArg.bmatch matchAt; rw [hS, hT]
  have hV : ∀ (s : Fin 16) (a k : Fin 8), KerArg.bvalid (k0_pay5 (F := Ideal) tb) s a k = validAt tok b s a k := fun s a k => by
    unfold KerArg.bvalid validAt; rw [hT]
  rw [KerArg.argV_apply]
  simp only [hM, hV, hE]
  rfl

/-! ## What each point writes back, the cover, and the final arrays -/

/-- WHAT POINT t WRITES BACK to the first result is block t of the weighted-sum mean of the argument arrays. -/
theorem flushed6_eq (c : Dev nD) (t : Fin cfg0.N) :
    (dats m 0 c).flushed 6 t = ((cfg0.win 6).blk t).view.read (Elt Ideal)
      (meanArrW (m ((c : Thread nD τ).loc main_arg1)) (m ((c : Thread nD τ).loc main_arg2))) := by
  have hN : t.val < 16 := by have h := t.isLt; have e : cfg0.N = 16 := N_0; omega
  obtain ⟨e0, e1, e2⟩ := (idx_out t).1
  rw [flushed6]
  unfold out0_6
  rw [View.canon_unit_zero hz3]
  simp only [View.ld_unit_zero (S := S1x16x128) hz3, View.ld_unit_zero (S := S1x16x128x768) hz4]
  funext j
  have hj0 : (j 0).val < 1 := (j 0).isLt
  refine mean_point (iblk m c 1 t) (iblk m c 2 t) (m ((c : Thread nD τ).loc main_arg1)) (m ((c : Thread nD τ).loc main_arg2))
    ⟨t.val, hN⟩ (fun s l => blk_msk m c t ⟨t.val, hN⟩ rfl s l) (fun s l d => blk_emb m c t ⟨t.val, hN⟩ rfl s l d)
    j (((cfg0.win 6).blk t).view.emb j) ?_ ?_ ?_
  · show win0_6.index t (0 : Fin 3) * 1 + 1 * (j 0).val = t.val; rw [e0]; omega
  · show win0_6.index t (1 : Fin 3) * 16 + 1 * (j 1).val = (j 1).val; rw [e1]; omega
  · show win0_6.index t (2 : Fin 3) * 768 + 1 * (j 2).val = (j 2).val; rw [e2]; omega

/-- Every index of the first result is in the block of the point its batch coordinate names. -/
theorem cover6 (i : S16x16x768.Idx) : ∃ t : Fin cfg0.N, (cfg0.win 6).flush t = true ∧ i ∈ ((cfg0.win 6).blk t).view.set := by
  have hi0 : (i 0).val < 16 := (i 0).isLt
  have hi1 : (i 1).val < 16 := (i 1).isLt
  have hi2 : (i 2).val < 768 := (i 2).isLt
  have hT : (i 0).val < cfg0.N := by have e : cfg0.N = 16 := N_0; omega
  refine ⟨⟨(i 0).val, hT⟩, flush0_6 _, ?_⟩
  obtain ⟨e0, e1, e2⟩ := (idx_out ⟨(i 0).val, hT⟩).1
  show i ∈ ((View.whole main_v0_0).slice (win0_6.rect ⟨(i 0).val, hT⟩)).set
  rw [View.set_slice_whole, Rect.mem_set_unit]
  intro ax
  match ax with
  | ⟨0, _⟩ => show win0_6.index ⟨(i 0).val, hT⟩ (0 : Fin 3) * 1 ≤ (i 0).val ∧ (i 0).val < win0_6.index ⟨(i 0).val, hT⟩ (0 : Fin 3) * 1 + 1; rw [e0]; show (i 0).val * 1 ≤ (i 0).val ∧ (i 0).val < (i 0).val * 1 + 1; omega
  | ⟨1, _⟩ => show win0_6.index ⟨(i 0).val, hT⟩ (1 : Fin 3) * 16 ≤ (i 1).val ∧ (i 1).val < win0_6.index ⟨(i 0).val, hT⟩ (1 : Fin 3) * 16 + 16; rw [e1]; omega
  | ⟨2, _⟩ => show win0_6.index ⟨(i 0).val, hT⟩ (2 : Fin 3) * 768 ≤ (i 2).val ∧ (i 2).val < win0_6.index ⟨(i 0).val, hT⟩ (2 : Fin 3) * 768 + 768; rw [e2]; omega

/-- So the first result ends holding the weighted-sum mean of the argument arrays. -/
theorem final6 (c : Dev nD) : (dats m 0 c).arrAt 6 cfg0.N
    = meanArrW (m ((c : Thread nD τ).loc main_arg1)) (m ((c : Thread nD τ).loc main_arg2)) :=
  (dats m 0 c).arrAt_eq_of_cover 6 _ (fun t _ => flushed6_eq m c t) cover6

/-- WHAT POINT t WRITES BACK to result 1 is block t of the argument embedding of the argument arrays. -/
theorem flushed7_eq (c : Dev nD) (t : Fin cfg0.N) :
    (dats m 0 c).flushed 7 t = ((cfg0.win 7).blk t).view.read (Elt Ideal)
      (argArr (m ((c : Thread nD τ).loc main_arg0)) (m ((c : Thread nD τ).loc main_arg2)) (m ((c : Thread nD τ).loc main_arg3))) := by
  have hN : t.val < 16 := by have h := t.isLt; have e : cfg0.N = 16 := N_0; omega
  obtain ⟨e0, e1, e2, e3⟩ := (idx_out t).2.1
  rw [flushed7]
  unfold out0_7
  rw [View.canon_unit_zero hz4]
  simp only [View.ld_unit_zero (S := S1x16x128) hz3, View.ld_unit_zero (S := S1x16x128x768) hz4, View.ld_unit_zero (S := S1x16x8x8) hz4]
  rw [KerArg.pay_first]
  funext j
  have hj0 : (j 0).val < 1 := (j 0).isLt
  refine arg_point (iblk m c 0 t) (iblk m c 2 t) (iblk m c 3 t) (m ((c : Thread nD τ).loc main_arg0)) (m ((c : Thread nD τ).loc main_arg2))
    (m ((c : Thread nD τ).loc main_arg3)) ⟨t.val, hN⟩ (fun s l => blk_sid m c t ⟨t.val, hN⟩ rfl s l) (fun s l d => blk_emb m c t ⟨t.val, hN⟩ rfl s l d)
    (fun s a k => blk_tok3 m c t ⟨t.val, hN⟩ rfl s a k) j (((cfg0.win 7).blk t).view.emb j) ?_ ?_ ?_ ?_
  · show win0_7.index t (0 : Fin 4) * 1 + 1 * (j 0).val = t.val; rw [e0]; omega
  · show win0_7.index t (1 : Fin 4) * 16 + 1 * (j 1).val = (j 1).val; rw [e1]; omega
  · show win0_7.index t (2 : Fin 4) * 8 + 1 * (j 2).val = (j 2).val; rw [e2]; omega
  · show win0_7.index t (3 : Fin 4) * 768 + 1 * (j 3).val = (j 3).val; rw [e3]; omega

/-- Every index of result 1 is in the block of the point its batch coordinate names. -/
theorem cover7 (i : S16x16x8x768.Idx) : ∃ t : Fin cfg0.N, (cfg0.win 7).flush t = true ∧ i ∈ ((cfg0.win 7).blk t).view.set := by
  have hi0 : (i 0).val < 16 := (i 0).isLt
  have hi1 : (i 1).val < 16 := (i 1).isLt
  have hi2 : (i 2).val < 8 := (i 2).isLt
  have hi3 : (i 3).val < 768 := (i 3).isLt
  have hT : (i 0).val < cfg0.N := by have e : cfg0.N = 16 := N_0; omega
  refine ⟨⟨(i 0).val, hT⟩, flush0_7 _, ?_⟩
  obtain ⟨e0, e1, e2, e3⟩ := (idx_out ⟨(i 0).val, hT⟩).2.1
  show i ∈ ((View.whole main_v0_1).slice (win0_7.rect ⟨(i 0).val, hT⟩)).set
  rw [View.set_slice_whole, Rect.mem_set_unit]
  intro ax
  match ax with
  | ⟨0, _⟩ => show win0_7.index ⟨(i 0).val, hT⟩ (0 : Fin 4) * 1 ≤ (i 0).val ∧ (i 0).val < win0_7.index ⟨(i 0).val, hT⟩ (0 : Fin 4) * 1 + 1; rw [e0]; show (i 0).val * 1 ≤ (i 0).val ∧ (i 0).val < (i 0).val * 1 + 1; omega
  | ⟨1, _⟩ => show win0_7.index ⟨(i 0).val, hT⟩ (1 : Fin 4) * 16 ≤ (i 1).val ∧ (i 1).val < win0_7.index ⟨(i 0).val, hT⟩ (1 : Fin 4) * 16 + 16; rw [e1]; omega
  | ⟨2, _⟩ => show win0_7.index ⟨(i 0).val, hT⟩ (2 : Fin 4) * 8 ≤ (i 2).val ∧ (i 2).val < win0_7.index ⟨(i 0).val, hT⟩ (2 : Fin 4) * 8 + 8; rw [e2]; omega
  | ⟨3, _⟩ => show win0_7.index ⟨(i 0).val, hT⟩ (3 : Fin 4) * 768 ≤ (i 3).val ∧ (i 3).val < win0_7.index ⟨(i 0).val, hT⟩ (3 : Fin 4) * 768 + 768; rw [e3]; omega

/-- So result 1 ends holding the argument embedding of the argument arrays. -/
theorem final7 (c : Dev nD) : (dats m 0 c).arrAt 7 cfg0.N
    = argArr (m ((c : Thread nD τ).loc main_arg0)) (m ((c : Thread nD τ).loc main_arg2)) (m ((c : Thread nD τ).loc main_arg3)) :=
  (dats m 0 c).arrAt_eq_of_cover 7 _ (fun t _ => flushed7_eq m c t) cover7

/-- WHAT POINT t WRITES BACK to result 2 is block t of the argument embedding of the argument arrays. -/
theorem flushed8_eq (c : Dev nD) (t : Fin cfg0.N) :
    (dats m 0 c).flushed 8 t = ((cfg0.win 8).blk t).view.read (Elt Ideal)
      (argArr (m ((c : Thread nD τ).loc main_arg0)) (m ((c : Thread nD τ).loc main_arg2)) (m ((c : Thread nD τ).loc main_arg4))) := by
  have hN : t.val < 16 := by have h := t.isLt; have e : cfg0.N = 16 := N_0; omega
  obtain ⟨e0, e1, e2, e3⟩ := (idx_out t).2.2.1
  rw [flushed8]
  unfold out0_8
  rw [View.canon_unit_zero hz4]
  simp only [View.ld_unit_zero (S := S1x16x128) hz3, View.ld_unit_zero (S := S1x16x128x768) hz4, View.ld_unit_zero (S := S1x16x8x8) hz4]
  rw [KerArg.pay_second]
  funext j
  have hj0 : (j 0).val < 1 := (j 0).isLt
  refine arg_point (iblk m c 0 t) (iblk m c 2 t) (iblk m c 4 t) (m ((c : Thread nD τ).loc main_arg0)) (m ((c : Thread nD τ).loc main_arg2))
    (m ((c : Thread nD τ).loc main_arg4)) ⟨t.val, hN⟩ (fun s l => blk_sid m c t ⟨t.val, hN⟩ rfl s l) (fun s l d => blk_emb m c t ⟨t.val, hN⟩ rfl s l d)
    (fun s a k => blk_tok4 m c t ⟨t.val, hN⟩ rfl s a k) j (((cfg0.win 8).blk t).view.emb j) ?_ ?_ ?_ ?_
  · show win0_8.index t (0 : Fin 4) * 1 + 1 * (j 0).val = t.val; rw [e0]; omega
  · show win0_8.index t (1 : Fin 4) * 16 + 1 * (j 1).val = (j 1).val; rw [e1]; omega
  · show win0_8.index t (2 : Fin 4) * 8 + 1 * (j 2).val = (j 2).val; rw [e2]; omega
  · show win0_8.index t (3 : Fin 4) * 768 + 1 * (j 3).val = (j 3).val; rw [e3]; omega

/-- Every index of result 2 is in the block of the point its batch coordinate names. -/
theorem cover8 (i : S16x16x8x768.Idx) : ∃ t : Fin cfg0.N, (cfg0.win 8).flush t = true ∧ i ∈ ((cfg0.win 8).blk t).view.set := by
  have hi0 : (i 0).val < 16 := (i 0).isLt
  have hi1 : (i 1).val < 16 := (i 1).isLt
  have hi2 : (i 2).val < 8 := (i 2).isLt
  have hi3 : (i 3).val < 768 := (i 3).isLt
  have hT : (i 0).val < cfg0.N := by have e : cfg0.N = 16 := N_0; omega
  refine ⟨⟨(i 0).val, hT⟩, flush0_8 _, ?_⟩
  obtain ⟨e0, e1, e2, e3⟩ := (idx_out ⟨(i 0).val, hT⟩).2.2.1
  show i ∈ ((View.whole main_v0_2).slice (win0_8.rect ⟨(i 0).val, hT⟩)).set
  rw [View.set_slice_whole, Rect.mem_set_unit]
  intro ax
  match ax with
  | ⟨0, _⟩ => show win0_8.index ⟨(i 0).val, hT⟩ (0 : Fin 4) * 1 ≤ (i 0).val ∧ (i 0).val < win0_8.index ⟨(i 0).val, hT⟩ (0 : Fin 4) * 1 + 1; rw [e0]; show (i 0).val * 1 ≤ (i 0).val ∧ (i 0).val < (i 0).val * 1 + 1; omega
  | ⟨1, _⟩ => show win0_8.index ⟨(i 0).val, hT⟩ (1 : Fin 4) * 16 ≤ (i 1).val ∧ (i 1).val < win0_8.index ⟨(i 0).val, hT⟩ (1 : Fin 4) * 16 + 16; rw [e1]; omega
  | ⟨2, _⟩ => show win0_8.index ⟨(i 0).val, hT⟩ (2 : Fin 4) * 8 ≤ (i 2).val ∧ (i 2).val < win0_8.index ⟨(i 0).val, hT⟩ (2 : Fin 4) * 8 + 8; rw [e2]; omega
  | ⟨3, _⟩ => show win0_8.index ⟨(i 0).val, hT⟩ (3 : Fin 4) * 768 ≤ (i 3).val ∧ (i 3).val < win0_8.index ⟨(i 0).val, hT⟩ (3 : Fin 4) * 768 + 768; rw [e3]; omega

/-- So result 2 ends holding the argument embedding of the argument arrays. -/
theorem final8 (c : Dev nD) : (dats m 0 c).arrAt 8 cfg0.N
    = argArr (m ((c : Thread nD τ).loc main_arg0)) (m ((c : Thread nD τ).loc main_arg2)) (m ((c : Thread nD τ).loc main_arg4)) :=
  (dats m 0 c).arrAt_eq_of_cover 8 _ (fun t _ => flushed8_eq m c t) cover8

/-- WHAT POINT t WRITES BACK to result 3 is block t of the argument embedding of the argument arrays. -/
theorem flushed9_eq (c : Dev nD) (t : Fin cfg0.N) :
    (dats m 0 c).flushed 9 t = ((cfg0.win 9).blk t).view.read (Elt Ideal)
      (argArr (m ((c : Thread nD τ).loc main_arg0)) (m ((c : Thread nD τ).loc main_arg2)) (m ((c : Thread nD τ).loc main_arg5))) := by
  have hN : t.val < 16 := by have h := t.isLt; have e : cfg0.N = 16 := N_0; omega
  obtain ⟨e0, e1, e2, e3⟩ := (idx_out t).2.2.2
  rw [flushed9]
  unfold out0_9
  rw [View.canon_unit_zero hz4]
  simp only [View.ld_unit_zero (S := S1x16x128) hz3, View.ld_unit_zero (S := S1x16x128x768) hz4, View.ld_unit_zero (S := S1x16x8x8) hz4]
  rw [KerArg.pay_third]
  funext j
  have hj0 : (j 0).val < 1 := (j 0).isLt
  refine arg_point (iblk m c 0 t) (iblk m c 2 t) (iblk m c 5 t) (m ((c : Thread nD τ).loc main_arg0)) (m ((c : Thread nD τ).loc main_arg2))
    (m ((c : Thread nD τ).loc main_arg5)) ⟨t.val, hN⟩ (fun s l => blk_sid m c t ⟨t.val, hN⟩ rfl s l) (fun s l d => blk_emb m c t ⟨t.val, hN⟩ rfl s l d)
    (fun s a k => blk_tok5 m c t ⟨t.val, hN⟩ rfl s a k) j (((cfg0.win 9).blk t).view.emb j) ?_ ?_ ?_ ?_
  · show win0_9.index t (0 : Fin 4) * 1 + 1 * (j 0).val = t.val; rw [e0]; omega
  · show win0_9.index t (1 : Fin 4) * 16 + 1 * (j 1).val = (j 1).val; rw [e1]; omega
  · show win0_9.index t (2 : Fin 4) * 8 + 1 * (j 2).val = (j 2).val; rw [e2]; omega
  · show win0_9.index t (3 : Fin 4) * 768 + 1 * (j 3).val = (j 3).val; rw [e3]; omega

/-- Every index of result 3 is in the block of the point its batch coordinate names. -/
theorem cover9 (i : S16x16x8x768.Idx) : ∃ t : Fin cfg0.N, (cfg0.win 9).flush t = true ∧ i ∈ ((cfg0.win 9).blk t).view.set := by
  have hi0 : (i 0).val < 16 := (i 0).isLt
  have hi1 : (i 1).val < 16 := (i 1).isLt
  have hi2 : (i 2).val < 8 := (i 2).isLt
  have hi3 : (i 3).val < 768 := (i 3).isLt
  have hT : (i 0).val < cfg0.N := by have e : cfg0.N = 16 := N_0; omega
  refine ⟨⟨(i 0).val, hT⟩, flush0_9 _, ?_⟩
  obtain ⟨e0, e1, e2, e3⟩ := (idx_out ⟨(i 0).val, hT⟩).2.2.2
  show i ∈ ((View.whole main_v0_3).slice (win0_9.rect ⟨(i 0).val, hT⟩)).set
  rw [View.set_slice_whole, Rect.mem_set_unit]
  intro ax
  match ax with
  | ⟨0, _⟩ => show win0_9.index ⟨(i 0).val, hT⟩ (0 : Fin 4) * 1 ≤ (i 0).val ∧ (i 0).val < win0_9.index ⟨(i 0).val, hT⟩ (0 : Fin 4) * 1 + 1; rw [e0]; show (i 0).val * 1 ≤ (i 0).val ∧ (i 0).val < (i 0).val * 1 + 1; omega
  | ⟨1, _⟩ => show win0_9.index ⟨(i 0).val, hT⟩ (1 : Fin 4) * 16 ≤ (i 1).val ∧ (i 1).val < win0_9.index ⟨(i 0).val, hT⟩ (1 : Fin 4) * 16 + 16; rw [e1]; omega
  | ⟨2, _⟩ => show win0_9.index ⟨(i 0).val, hT⟩ (2 : Fin 4) * 8 ≤ (i 2).val ∧ (i 2).val < win0_9.index ⟨(i 0).val, hT⟩ (2 : Fin 4) * 8 + 8; rw [e2]; omega
  | ⟨3, _⟩ => show win0_9.index ⟨(i 0).val, hT⟩ (3 : Fin 4) * 768 ≤ (i 3).val ∧ (i 3).val < win0_9.index ⟨(i 0).val, hT⟩ (3 : Fin 4) * 768 + 768; rw [e3]; omega

/-- So result 3 ends holding the argument embedding of the argument arrays. -/
theorem final9 (c : Dev nD) : (dats m 0 c).arrAt 9 cfg0.N
    = argArr (m ((c : Thread nD τ).loc main_arg0)) (m ((c : Thread nD τ).loc main_arg2)) (m ((c : Thread nD τ).loc main_arg5)) :=
  (dats m 0 c).arrAt_eq_of_cover 9 _ (fun t _ => flushed9_eq m c t) cover9

/-! ## The run, read -/

/-- The kernel's run with each result array at its function of the argument arrays, the arguments unchanged. -/
theorem run : θ_run defs (onTc (τ := τ) (main (F := Ideal))) ⟨m, fun _ => 0, ρ⟩ fun r => ∀ c : Dev nD,
      r.2.mem ((c : Thread nD τ).loc main_v0_0) = meanArrW (m ((c : Thread nD τ).loc main_arg1)) (m ((c : Thread nD τ).loc main_arg2))
      ∧ r.2.mem ((c : Thread nD τ).loc main_v0_1) = argArr (m ((c : Thread nD τ).loc main_arg0)) (m ((c : Thread nD τ).loc main_arg2)) (m ((c : Thread nD τ).loc main_arg3))
      ∧ r.2.mem ((c : Thread nD τ).loc main_v0_2) = argArr (m ((c : Thread nD τ).loc main_arg0)) (m ((c : Thread nD τ).loc main_arg2)) (m ((c : Thread nD τ).loc main_arg4))
      ∧ r.2.mem ((c : Thread nD τ).loc main_v0_3) = argArr (m ((c : Thread nD τ).loc main_arg0)) (m ((c : Thread nD τ).loc main_arg2)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final6 m c), (h c).2.1.trans (final7 m c), (h c).2.2.1.trans (final8 m c),
      (h c).2.2.2.1.trans (final9 m c), (h c).2.2.2.2⟩)
    (run_blocks m ρ)

end Cert.KerValue

end
-- ==== Proof.RefMean.lean ====
/-
  The reference's masked mean, read one operation at a time, is the specification's quotient-of-the-sum form:
  at (b, s, d) the sum over l of emb[b,s,l,d] · mask[b,s,l], divided by max 1 (∑ₗ mask[b,s,l]).
-/
import proofs.«172881_j90726889161116_1_alg».proof.Proof.Gen.ReferenceIdeal.Read
import proofs.«172881_j90726889161116_1_alg».proof.Proof.Spec

noncomputable section

open scoped BigOperators

namespace Cert.RefMean

open Cert.ReferenceIdeal Cert.ReferenceIdeal.Read Idealize.ShloMosaic Idealize.ShloMosaic.ValueIdx Cert.Spec

variable (msk : (⟨S16x16x128, .i32⟩ : BufTy).Contents (Elt Ideal)) (emb : (⟨S16x16x128x768, .f32⟩ : BufTy).Contents (Elt Ideal))

/-- Where the sum's term `k` reads the embeddings. -/
theorem idx_emb (b s : Fin 16) (d : Fin 768) (k : Fin 128) : idx_main_v4 (ix3 b s d) k = ix4 b s k d :=
  funext fun a => Fin.ext (by match a with | ⟨0, _⟩ => rfl | ⟨1, _⟩ => rfl | ⟨2, _⟩ => rfl | ⟨3, _⟩ => rfl)

/-- Where the sum's term `k` reads the mask, through the two broadcasts. -/
theorem idx_msk (b s : Fin 16) (k : Fin 128) (d : Fin 768) : idx_main_v1 (idx_main_v2 (ix4 b s k d)) = ix3 b s k :=
  funext fun a => Fin.ext (by match a with | ⟨0, _⟩ => rfl | ⟨1, _⟩ => rfl | ⟨2, _⟩ => rfl)

/-- Where the count's term `k` reads the mask, through the broadcasts of the count and of the mask. -/
theorem idx_cnt (b s : Fin 16) (d : Fin 768) (k : Fin 128) : idx_main_v1 (idx_main_v5 (idx_main_v7 (ix3 b s d)) k) = ix3 b s k :=
  funext fun a => Fin.ext (by match a with | ⟨0, _⟩ => rfl | ⟨1, _⟩ => rfl | ⟨2, _⟩ => rfl)

/-- The reference's first result is the masked mean of the specification. -/
theorem val_eq : val_main_v8 (F := Ideal) msk emb = meanArr msk emb := by
  funext i
  obtain ⟨b, s, d, rfl⟩ : ∃ (b s : Fin 16) (d : Fin 768), i = ix3 b s d := ⟨i 0, i 1, i 2, eq_ix3 i⟩
  rw [val_main_v8_apply, val_main_v4_apply, val_main_v7_apply, val_main_v6_apply, val_main_v5_apply,
    val_main_call0_v1_apply, val_main_call0_v0_apply]
  simp only [idx_emb, val_main_v3_apply, val_main_v2_apply, val_main_v1_apply, idx_msk, idx_cnt, val_main_v0_apply,
    val_main_cst_apply, val_main_cst_0_apply, val_main_cst_1_apply, Ideal.hostDivf_def, Ideal.mulf_def,
    Ideal.maximumf_def, Ideal.ofBits_def, Ideal.ofBits_zero_f32, zero_add]
  rfl

end Cert.RefMean

end
-- ==== Proof.RefArg.lean ====
/-
  The reference's argument embedding, read one operation at a time, is the specification's `argArr`:
  at (b, s, a, d), the sum over l of W[b,s,a,l] · emb[b,s,l,d] divided by max 1 (number of valid tokens), where
  W[b,s,a,l] sums over the tokens t the share `match / max 1 (∑ₗ match)` times `valid`.

  The three argument kinds run the same operations on different token arrays, so the second and third results are
  the first one's function at another argument.
-/
import proofs.«172881_j90726889161116_1_alg».proof.Proof.Gen.ReferenceIdeal.Read
import proofs.«172881_j90726889161116_1_alg».proof.Proof.Spec

noncomputable section

open scoped BigOperators

namespace Cert.RefArg

open Cert.ReferenceIdeal Cert.ReferenceIdeal.Read Idealize.ShloMosaic Idealize.ShloMosaic.ValueIdx Cert.Spec

variable (sid : (⟨S16x16x128, .i32⟩ : BufTy).Contents (Elt Ideal)) (emb : (⟨S16x16x128x768, .f32⟩ : BufTy).Contents (Elt Ideal))
variable (tok : (⟨S16x16x8x8, .i32⟩ : BufTy).Contents (Elt Ideal))

/-! ## A sum over the token axis and a trailing unit axis -/

/-- The host's float sum over the last two axes of a [16,16,8,8,1] array, at (b, s, a): the initial value plus the sum
    over the eight tokens (the unit axis has the one coordinate 0). The indices that reduce to (b, s, a) are exactly
    (b, s, a, t, 0) for t < 8. -/
theorem sum_tokens (h' : S16x16x8x8x1.ReducesTo [3, 4] S16x16x8) (x : S16x16x8x8x1.Idx → EReal) (init : EReal)
    (b s : Fin 16) (a : Fin 8) :
    Ideal.hostReduceAdd h' x init (ix3 b s a) = init + ∑ t : Fin 8, x (ix5 b s a t (0 : Fin 1)) := by
  unfold Ideal.hostReduceAdd
  refine congrArg (init + ·) ?_
  have himg : (Finset.univ.filter fun i : S16x16x8x8x1.Idx => h'.drop i = ix3 b s a)
      = Finset.univ.image (fun t : Fin 8 => (ix5 b s a t (0 : Fin 1) : S16x16x8x8x1.Idx)) := by
    ext i
    simp only [Finset.mem_filter, Finset.mem_univ, true_and, Finset.mem_image]
    constructor
    · intro hi
      have h0 : (i 0).val = b.val := congrArg (fun j : S16x16x8.Idx => (j 0).val) hi
      have h1 : (i 1).val = s.val := congrArg (fun j : S16x16x8.Idx => (j 1).val) hi
      have h2 : (i 2).val = a.val := congrArg (fun j : S16x16x8.Idx => (j 2).val) hi
      have h4 : (i 4).val < 1 := (i 4).isLt
      refine ⟨i 3, funext fun c => Fin.ext ?_⟩
      match c with
      | ⟨0, _⟩ => exact h0.symm
      | ⟨1, _⟩ => exact h1.symm
      | ⟨2, _⟩ => exact h2.symm
      | ⟨3, _⟩ => rfl
      | ⟨4, _⟩ => show 0 = (i 4).val; omega
    · rintro ⟨t, rfl⟩
      refine funext fun c => Fin.ext ?_
      match c with
      | ⟨0, _⟩ => rfl
      | ⟨1, _⟩ => rfl
      | ⟨2, _⟩ => rfl
  rw [himg, Finset.sum_image]
  intro t _ t' _ h
  exact congrFun h 3

/-! ## Where each operation reads its operand, at coordinates -/

theorem idx_dot_l (b s : Fin 16) (a : Fin 8) (d : Fin 768) (l : Fin 128) : lidx_main_v30 (ix4 b s a d) l = ix4 b s a l :=
  funext fun c => Fin.ext (by match c with | ⟨0, _⟩ => rfl | ⟨1, _⟩ => rfl | ⟨2, _⟩ => rfl | ⟨3, _⟩ => rfl)
theorem idx_dot_r (b s : Fin 16) (a : Fin 8) (d : Fin 768) (l : Fin 128) : ridx_main_v30 (ix4 b s a d) l = ix4 b s l d :=
  funext fun c => Fin.ext (by match c with | ⟨0, _⟩ => rfl | ⟨1, _⟩ => rfl | ⟨2, _⟩ => rfl | ⟨3, _⟩ => rfl)
theorem idx_w (b s : Fin 16) (a : Fin 8) (l : Fin 128) (t : Fin 8) : idx_main_v26 (ix4 b s a l) t = ix5 b s a t l :=
  funext fun c => Fin.ext (by match c with | ⟨0, _⟩ => rfl | ⟨1, _⟩ => rfl | ⟨2, _⟩ => rfl | ⟨3, _⟩ => rfl | ⟨4, _⟩ => rfl)
theorem idx_tok (b s : Fin 16) (a t : Fin 8) (l : Fin 128) : idx_main_v9 (idx_main_v11 (ix5 b s a t l)) = ix4 b s a t :=
  funext fun c => Fin.ext (by match c with | ⟨0, _⟩ => rfl | ⟨1, _⟩ => rfl | ⟨2, _⟩ => rfl | ⟨3, _⟩ => rfl)
theorem idx_sid (b s : Fin 16) (a t : Fin 8) (l : Fin 128) : idx_main_v10 (idx_main_v12 (ix5 b s a t l)) = ix3 b s l :=
  funext fun c => Fin.ext (by match c with | ⟨0, _⟩ => rfl | ⟨1, _⟩ => rfl | ⟨2, _⟩ => rfl)
theorem idx_cnt (b s : Fin 16) (a t : Fin 8) (l : Fin 128) : idx_main_v16 (idx_main_v22 (ix5 b s a t l)) = ix4 b s a t :=
  funext fun c => Fin.ext (by match c with | ⟨0, _⟩ => rfl | ⟨1, _⟩ => rfl | ⟨2, _⟩ => rfl | ⟨3, _⟩ => rfl)
theorem idx_cnt_k (b s : Fin 16) (a t : Fin 8) (k : Fin 128) : idx_main_v15 (ix4 b s a t) k = ix5 b s a t k :=
  funext fun c => Fin.ext (by match c with | ⟨0, _⟩ => rfl | ⟨1, _⟩ => rfl | ⟨2, _⟩ => rfl | ⟨3, _⟩ => rfl | ⟨4, _⟩ => rfl)
theorem idx_valid (b s : Fin 16) (a t : Fin 8) (l : Fin 128) : idx_main_v21 (idx_main_v24 (ix5 b s a t l)) = ix4 b s a t :=
  funext fun c => Fin.ext (by match c with | ⟨0, _⟩ => rfl | ⟨1, _⟩ => rfl | ⟨2, _⟩ => rfl | ⟨3, _⟩ => rfl)
theorem idx_valid1 (b s : Fin 16) (a t : Fin 8) : idx_main_v21 (ix5 b s a t (0 : Fin 1)) = ix4 b s a t :=
  funext fun c => Fin.ext (by match c with | ⟨0, _⟩ => rfl | ⟨1, _⟩ => rfl | ⟨2, _⟩ => rfl | ⟨3, _⟩ => rfl)
theorem idx_nv (b s : Fin 16) (a : Fin 8) (d : Fin 768) : idx_main_v29 (idx_main_v31 (ix4 b s a d)) = ix3 b s a :=
  funext fun c => Fin.ext (by match c with | ⟨0, _⟩ => rfl | ⟨1, _⟩ => rfl | ⟨2, _⟩ => rfl)

/-! ## The stages -/

/-- The number of valid tokens, before the clip: the one stage the generated lemmas do not read. -/
theorem validSum_apply (b s : Fin 16) (a : Fin 8) :
    val_main_v27 (F := Ideal) tok (ix3 b s a) = ∑ t : Fin 8, validAt tok b s a t := by
  unfold val_main_v27
  simp only [Host.reduceAdd, Ideal.hostReduceAdd_def]
  rw [sum_tokens]
  simp only [val_main_cst_5_apply, val_main_v21_apply, idx_valid1, val_main_v20_apply, val_main_v19_apply,
    val_main_v18_apply, val_main_c_apply, Ideal.ofBits_def, Ideal.ofBits_zero_f32, zero_add]
  rfl

/-- The reference's second result (the first argument kind) is the argument embedding of the specification. -/
theorem val_eq : val_main_v32 (F := Ideal) sid emb tok = argArr sid emb tok := by
  funext i
  obtain ⟨b, s, a, d, rfl⟩ : ∃ (b s : Fin 16) (a : Fin 8) (d : Fin 768), i = ix4 b s a d :=
    ⟨i 0, i 1, i 2, i 3, eq_ix4 i⟩
  rw [val_main_v32_apply, val_main_v30_apply, val_main_v31_apply, val_main_v29_apply, idx_nv, val_main_v28_apply,
    validSum_apply, val_main_call2_v1_apply, val_main_call2_v0_apply]
  simp only [idx_dot_l, idx_dot_r, val_main_v26_apply, idx_w, val_main_v25_apply, val_main_v23_apply, val_main_v24_apply,
    val_main_v22_apply, val_main_v21_apply, idx_valid, val_main_v20_apply, val_main_v19_apply, val_main_v18_apply,
    val_main_c_apply, val_main_v17_apply, val_main_v16_apply, idx_cnt, val_main_v15_apply, idx_cnt_k, val_main_v14_apply,
    val_main_v13_apply, val_main_v11_apply, val_main_v12_apply, val_main_v9_apply, val_main_v10_apply, idx_tok, idx_sid,
    val_main_call1_v1_apply, val_main_call1_v0_apply, val_main_cst_2_apply, val_main_cst_3_apply, val_main_cst_4_apply,
    val_main_cst_6_apply, Ideal.hostDivf_def, Ideal.mulf_def, Ideal.maximumf_def, Ideal.ofBits_def, Ideal.ofBits_zero_f32,
    zero_add]
  rfl

/-- The second argument kind runs the same operations on its own token array. -/
theorem val_eq_second (tok4 : (⟨S16x16x8x8, .i32⟩ : BufTy).Contents (Elt Ideal)) :
    val_main_v56 (F := Ideal) sid emb tok4 = argArr sid emb tok4 :=
  (show val_main_v56 (F := Ideal) sid emb tok4 = val_main_v32 (F := Ideal) sid emb tok4 from rfl).trans (val_eq sid emb tok4)

/-- And so does the third. -/
theorem val_eq_third (tok5 : (⟨S16x16x8x8, .i32⟩ : BufTy).Contents (Elt Ideal)) :
    val_main_v80 (F := Ideal) sid emb tok5 = argArr sid emb tok5 :=
  (show val_main_v80 (F := Ideal) sid emb tok5 = val_main_v32 (F := Ideal) sid emb tok5 from rfl).trans (val_eq sid emb tok5)

end Cert.RefArg

end
-- ==== Proof.Finite.lean ====
/-
  What the precondition gives: every entry of the embeddings is a real number.

  The precondition is the conjunction over all indices of `|x| < +∞`. On the extended reals `|x| = max x (-x)` is +∞ at
  both infinities, so the comparison holds exactly at the real numbers.
-/
import proofs.«172881_j90726889161116_1_alg».proof.Pre_finite_inputs
import Idealize.ShloMosaic.PureOps.Ideal
import Idealize.ShloMosaic.Lib.ReduceAll
import Idealize.ShloMosaic.Lib.ValueIdx

noncomputable section

namespace Cert.Finite

open Idealize.ShloMosaic Cert.Pre_finite_inputs

variable [Cert.Pre_finite_inputs.Facts]

/-- The float word of +∞ denotes the top of the extended reals. -/
theorem inf_eq_top : Ideal.ofBits .f32 0x7F800000#32 = (⊤ : EReal) := by
  simp [Ideal.ofBits, Ideal.ieee]

/-- An extended real whose absolute value is below +∞ is a real number. -/
theorem real_of_abs_lt_top (x : EReal) (h : Ideal.cmp .olt (max x (-x)) (⊤ : EReal) = 1#1) : ∃ r : ℝ, x = (r : EReal) := by
  induction x using EReal.rec with
  | bot => simp [Ideal.cmp] at h
  | top => simp [Ideal.cmp] at h
  | coe r => exact ⟨r, rfl⟩

/-- Under the precondition every entry of the third argument is a real number. -/
theorem emb_real (a0 a1 : IVec S16x16x128 32) (e : FVec Ideal S16x16x128x768 .f32) (a3 a4 a5 : IVec S16x16x8x8 32)
    (h : Cert.Pre_finite_inputs.fn (F := Ideal) a0 a1 e a3 a4 a5 = fun _ => 1#1) (i : S16x16x128x768.Idx) :
    ∃ r : ℝ, e i = (r : EReal) := by
  have h0 := congrFun h ValueIdx.ix0
  dsimp only [Cert.Pre_finite_inputs.fn] at h0
  haveI : Subsingleton S_.Idx := ⟨fun a b => funext fun d => d.elim0⟩
  have hi := Host.reduce_andi_all _ _ _ _ _ h0 i
  refine real_of_abs_lt_top (e i) ?_
  rw [← inf_eq_top]
  exact hi

end Cert.Finite

end
-- ==== Proof.Bridge.lean ====
/-
  The two forms of the masked mean agree where the embeddings are real numbers.

  The count c = max 1 (∑ₗ mask) is a real number and is at least 1, hence not zero; the mask entries are integers. With
  every embedding entry real, ∑ₗ (maskₗ / c) · embₗ and (∑ₗ embₗ · maskₗ) / c are the same real number: the divisor
  moves across the finite sum.
-/
import proofs.«172881_j90726889161116_1_alg».proof.Proof.Spec

noncomputable section

open scoped BigOperators

namespace Cert.Bridge

open Idealize.ShloMosaic Idealize.ShloMosaic.ValueIdx Cert.Spec

/-- The clipped count is the real number `max 1 (∑ₗ maskₗ)`. -/
theorem maskCount_coe (msk : (⟨3, ![16, 16, 128]⟩ : Shape).Idx → BitVec 32) (b s : Fin 16) :
    maskCount msk b s = ((max 1 (∑ l : Fin 128, ((msk (ix3 b s l)).toInt : ℝ)) : ℝ) : EReal) := by
  unfold maskCount maskAt sint
  rw [oneW_eq, coe_sum]
  exact (Monotone.map_max EReal.coe_strictMono.monotone).symm

/-- Where every embedding entry is a real number, the weighted sum is the quotient of the masked sum. -/
theorem mean_forms_eq (msk : (⟨3, ![16, 16, 128]⟩ : Shape).Idx → BitVec 32)
    (emb : (⟨4, ![16, 16, 128, 768]⟩ : Shape).Idx → EReal) (hfin : ∀ i, ∃ r : ℝ, emb i = (r : EReal))
    (b s : Fin 16) (d : Fin 768) : meanOfWeights msk emb b s d = meanOfSum msk emb b s d := by
  choose e he using hfin
  unfold meanOfWeights meanOfSum
  rw [maskCount_coe]
  simp only [he, maskAt, sint]
  exact sum_div_eq (fun l => e (ix4 b s l d)) (fun l => ((msk (ix3 b s l)).toInt : ℝ)) _
    (lt_of_lt_of_le one_pos (le_max_left 1 _)).ne'

end Cert.Bridge

end
-- ==== Proof.lean ====
/- The proof of `Cert.Claim`: the kernel, its reading over the extended reals, and the reference compute the same four arrays.

   The masked mean. Per sentence (b, s) let m be the integer mask and c = max 1 (∑ₗ mₗ). The reference divides the masked
   sum, (∑ₗ embₗ · mₗ) / c; the kernel forms the weights mₗ / c and multiplies them into the embeddings as a matrix product,
   ∑ₗ (mₗ / c) · embₗ. The count c is a real number that is at least 1 and the precondition makes every embedding entry a
   real number, so the divisor moves across the sum (Proof/Bridge.lean, over Proof/Finite.lean).

   The three argument embeddings. Both programs compute, per (b, s, a),
     (∑ₗ W[l] · emb[l]) / max 1 (∑ₜ valid[t]),  W[l] = ∑ₜ (match[t,l] / max 1 (∑ₗ match[t,l])) · valid[t],
   the kernel on one batch entry per grid point and as a matrix product, the reference on whole arrays and as a
   contraction; read index by index the two are one expression, and no law is needed.

   The kernel side is Proof/KerValue.lean (what each grid point writes back is a block of one whole-array function; the
   sixteen blocks tile each result), over the body's payloads read at an index (Proof/KerMean.lean, Proof/KerArg.lean);
   the reference side is its run read one operation at a time (Proof/RefMean.lean, Proof/RefArg.lean); the functions
   themselves are stated in Proof/Spec.lean. The frames are the generated frame certificates, the reference's its
   generated run with the results dropped; the idealization rewrote nothing, so `preserves` is `True`. -/
import proofs.«172881_j90726889161116_1_alg».proof.Defs
import proofs.«172881_j90726889161116_1_alg».proof.Proof.Gen.Kernel
import proofs.«172881_j90726889161116_1_alg».proof.Proof.Gen.Kernel.Skeleton
import proofs.«172881_j90726889161116_1_alg».proof.Proof.Gen.Kernel.Launch
import proofs.«172881_j90726889161116_1_alg».proof.Proof.Gen.Kernel.Points
import proofs.«172881_j90726889161116_1_alg».proof.Proof.Gen.Kernel.Frame
import proofs.«172881_j90726889161116_1_alg».proof.Proof.Gen.KernelIdeal
import proofs.«172881_j90726889161116_1_alg».proof.Proof.Gen.KernelIdeal.Skeleton
import proofs.«172881_j90726889161116_1_alg».proof.Proof.Gen.KernelIdeal.Launch
import proofs.«172881_j90726889161116_1_alg».proof.Proof.Gen.KernelIdeal.Points
import proofs.«172881_j90726889161116_1_alg».proof.Proof.Gen.KernelIdeal.Frame
import proofs.«172881_j90726889161116_1_alg».proof.Proof.Gen.ReferenceIdeal
import proofs.«172881_j90726889161116_1_alg».proof.Proof.Gen.Pre_finite_inputs
import proofs.«172881_j90726889161116_1_alg».proof.Proof.Gen.ReferenceIdeal.Run
import proofs.«172881_j90726889161116_1_alg».proof.Proof.Gen.ReferenceIdeal.Read
import proofs.«172881_j90726889161116_1_alg».proof.Proof.KerValue
import proofs.«172881_j90726889161116_1_alg».proof.Proof.RefMean
import proofs.«172881_j90726889161116_1_alg».proof.Proof.RefArg
import proofs.«172881_j90726889161116_1_alg».proof.Proof.Finite
import proofs.«172881_j90726889161116_1_alg».proof.Proof.Bridge
import Idealize.ShloMosaic.Adequacy
import Idealize.ShloMosaic.Init

noncomputable section

namespace Cert.Proof

open Idealize.ShloMosaic Idealize.ShloMosaic.TcCoe Idealize.SL.Sem Cert.Spec

/-- The word-level kernel runs and keeps its arguments: the generated frame certificate. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and keeps its arguments: its generated run, the results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

/-- Over the extended reals, from memories agreeing on the six arguments and with finite embeddings, the kernel and the
    reference end with the same four result arrays: the weighted-sum mean (equal to the reference's quotient of the sum
    because the embeddings are real) and the three argument embeddings. -/
theorem algebraic : Cert.algebraic_KernelIdeal_ReferenceIdeal := by
  intro m ρ m' ρ' hpre hagree
  refine ⟨_, _, _, _, Cert.KerValue.run m ρ, ?_⟩
  refine (θ_run Cert.ReferenceIdeal.defs _ _).mono (fun _ h c => ?_) (Cert.ReferenceIdeal.Value.run (F := Ideal) m' ρ')
  obtain ⟨a0, a1, a2, a3, a4, a5⟩ := hagree c
  have hfin := Cert.Finite.emb_real _ _ _ _ _ _ (hpre c)
  refine ⟨(h c).1.trans ?_, (h c).2.1.trans ?_, (h c).2.2.1.trans ?_, (h c).2.2.2.1.trans ?_, (h c).2.2.2.2⟩
  · rw [Cert.ReferenceIdeal.Read.val_main_v8_eq, Cert.RefMean.val_eq, a1, a2]
    exact funext fun i => (Cert.Bridge.mean_forms_eq _ _ hfin (i 0) (i 1) (i 2)).symm
  · rw [Cert.ReferenceIdeal.Read.val_main_v32_eq, Cert.RefArg.val_eq, a0, a2, a3]
  · rw [Cert.ReferenceIdeal.Read.val_main_v56_eq, Cert.RefArg.val_eq_second, a0, a2, a4]
  · rw [Cert.ReferenceIdeal.Read.val_main_v80_eq, Cert.RefArg.val_eq_third, a0, a2, a5]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
